-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048 : Shape := ⟨1, ![2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Kernel.lean ====
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S512 : Shape := ⟨1, ![512]⟩
abbrev S512x1024 : Shape := ⟨2, ![512, 1024]⟩
abbrev S512x2048 : Shape := ⟨2, ![512, 2048]⟩
abbrev S512x1 : Shape := ⟨2, ![512, 1]⟩

abbrev nBuf : Space → Nat
  | .hbm => 77
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .bf16⟩
  | .hbm, ⟨34, _⟩ => ⟨S2048x1024, .bf16⟩
  | .hbm, ⟨35, _⟩ => ⟨S2048x1024, .bf16⟩
  | .hbm, ⟨36, _⟩ => ⟨S2048x1024, .bf16⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512, .f32⟩
  | .local _ .vmem, ⟨5, _⟩ => ⟨S512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_v0 : Ref sig .tc := ⟨.hbm, 19, rfl⟩
abbrev main_call2_cst : Ref sig .tc := ⟨.hbm, 20, rfl⟩
abbrev main_call2_v1 : Ref sig .tc := ⟨.hbm, 21, rfl⟩
abbrev main_call2_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call3_v0 : Ref sig .tc := ⟨.hbm, 26, rfl⟩
abbrev main_call3_cst : Ref sig .tc := ⟨.hbm, 27, rfl⟩
abbrev main_call3_v1 : Ref sig .tc := ⟨.hbm, 28, rfl⟩
abbrev main_call3_v2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_cst_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call4_v0 : Ref sig .tc := ⟨.hbm, 52, rfl⟩
abbrev main_call4_cst : Ref sig .tc := ⟨.hbm, 53, rfl⟩
abbrev main_call4_v1 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call5_v0 : Ref sig .tc := ⟨.hbm, 65, rfl⟩
abbrev main_call5_cst : Ref sig .tc := ⟨.hbm, 66, rfl⟩
abbrev main_call5_v1 : Ref sig .tc := ⟨.hbm, 67, rfl⟩
abbrev main_v37 : Ref sig .tc := ⟨.hbm, 68, rfl⟩
abbrev main_v38 : Ref sig .tc := ⟨.hbm, 69, rfl⟩
abbrev main_cst_3 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  bitsLt_bf16_f32 : FTy.bits .bf16 < FTy.bits .f32
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  reducesTo_S2048_S_d0 : S2048.ReducesTo [0] S_
  bcast_S_S2048x1 : S_.BroadcastsInDim S2048x1 (![] : Fin 0 → Fin S2048x1.rank)
  dot_S512x1024_S2048x1024_S512x2048_1_1_0_0_n_n_wf : DotDims.WF S512x1024 S2048x1024 S512x2048 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x1024.size a ≤ S2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .bf16 = 32 ∨ (Rect.block (s := S2048x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S2048.size a
  hwx0_4 : ∀ i : grid0.Coords, EltTy.bits .f32 = 32 ∨ (Rect.block (s := S2048) S512.size (cc0_transform_4 i) (hinb0_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v12) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1x2048x1024 : Shape := ⟨3, ![1, 2048, 1024]⟩
abbrev S4x2048x1024 : Shape := ⟨3, ![4, 2048, 1024]⟩
abbrev S4x2048x2048 : Shape := ⟨3, ![4, 2048, 2048]⟩
abbrev S2048x2 : Shape := ⟨2, ![2048, 2]⟩
abbrev S4x2048 : Shape := ⟨2, ![4, 2048]⟩
abbrev S1x2048 : Shape := ⟨2, ![1, 2048]⟩

abbrev nBuf : Space → Nat
  | .hbm => 164
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048, .f32⟩
  | 5 => ⟨S2048x1024, .f32⟩
  | 6 => ⟨S_, .f32⟩
  | 7 => ⟨S2048, .f32⟩
  | 8 => ⟨S2048x1, .f32⟩
  | 9 => ⟨S2048x1, .f32⟩
  | 10 => ⟨S2048x1024, .f32⟩
  | 11 => ⟨S2048x1024, .f32⟩
  | 12 => ⟨S2048x1024, .f32⟩
  | 13 => ⟨S_, .f32⟩
  | 14 => ⟨S2048, .f32⟩
  | 15 => ⟨S2048x1, .f32⟩
  | 16 => ⟨S2048x1, .f32⟩
  | 17 => ⟨S2048x1024, .f32⟩
  | 18 => ⟨S2048x1024, .f32⟩
  | 19 => ⟨S2048x1024, .f32⟩
  | 20 => ⟨S_, .f32⟩
  | 21 => ⟨S2048, .f32⟩
  | 22 => ⟨S2048x1, .f32⟩
  | 23 => ⟨S2048x1, .f32⟩
  | 24 => ⟨S2048x1024, .f32⟩
  | 25 => ⟨S2048x1024, .f32⟩
  | 26 => ⟨S2048x1024, .f32⟩
  | 27 => ⟨S_, .f32⟩
  | 28 => ⟨S2048, .f32⟩
  | 29 => ⟨S2048x1, .f32⟩
  | 30 => ⟨S2048x1, .f32⟩
  | 31 => ⟨S2048x1024, .f32⟩
  | 32 => ⟨S2048x1024, .f32⟩
  | 33 => ⟨S1x2048x1024, .f32⟩
  | 34 => ⟨S1x2048x1024, .f32⟩
  | 35 => ⟨S1x2048x1024, .f32⟩
  | 36 => ⟨S1x2048x1024, .f32⟩
  | 37 => ⟨S4x2048x1024, .f32⟩
  | 38 => ⟨S4x2048x2048, .f32⟩
  | 39 => ⟨S4x2048x2048, .f32⟩
  | 40 => ⟨S_, .f32⟩
  | 41 => ⟨S4x2048x2048, .f32⟩
  | 42 => ⟨S4x2048x2048, .f32⟩
  | 43 => ⟨S4x2048x2048, .f32⟩
  | 44 => ⟨S4x2048x2048, .f32⟩
  | 45 => ⟨S_, .f32⟩
  | 46 => ⟨S4x2048x2048, .f32⟩
  | 47 => ⟨S4x2048x2048, .f32⟩
  | 48 => ⟨S4x2048x2048, .f32⟩
  | 49 => ⟨S4x2048x2048, .f32⟩
  | 50 => ⟨S2048, .i32⟩
  | 51 => ⟨S2048, .i32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S_, .i32⟩
  | 60 => ⟨S2048, .i32⟩
  | 61 => ⟨S2048, .i1⟩
  | 62 => ⟨S_, .i32⟩
  | 63 => ⟨S2048, .i32⟩
  | 64 => ⟨S2048, .i32⟩
  | 65 => ⟨S2048, .i32⟩
  | 66 => ⟨S2048x1, .i32⟩
  | 67 => ⟨S2048x1, .i32⟩
  | 68 => ⟨S2048x2, .i32⟩
  | 69 => ⟨S4x2048, .f32⟩
  | 70 => ⟨S2048, .i32⟩
  | 71 => ⟨S2048, .i32⟩
  | 72 => ⟨S_, .i32⟩
  | 73 => ⟨S2048, .i32⟩
  | 74 => ⟨S2048, .i1⟩
  | 75 => ⟨S_, .i32⟩
  | 76 => ⟨S2048, .i32⟩
  | 77 => ⟨S2048, .i32⟩
  | 78 => ⟨S2048, .i32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S2048x1, .i32⟩
  | 88 => ⟨S2048x2, .i32⟩
  | 89 => ⟨S4x2048, .f32⟩
  | 90 => ⟨S_, .f32⟩
  | 91 => ⟨S2048, .f32⟩
  | 92 => ⟨S_, .f32⟩
  | 93 => ⟨S2048, .f32⟩
  | 94 => ⟨S2048, .f32⟩
  | 95 => ⟨S_, .f32⟩
  | 96 => ⟨S2048, .f32⟩
  | 97 => ⟨S_, .f32⟩
  | 98 => ⟨S2048, .f32⟩
  | 99 => ⟨S2048, .f32⟩
  | 100 => ⟨S1x2048, .f32⟩
  | 101 => ⟨S2048, .f32⟩
  | 102 => ⟨S1x2048, .f32⟩
  | 103 => ⟨S2048, .f32⟩
  | 104 => ⟨S2048, .f32⟩
  | 105 => ⟨S1x2048, .f32⟩
  | 106 => ⟨S2048, .f32⟩
  | 107 => ⟨S2048, .f32⟩
  | 108 => ⟨S1x2048, .f32⟩
  | 109 => ⟨S2048, .f32⟩
  | 110 => ⟨S1x2048, .f32⟩
  | 111 => ⟨S2048, .f32⟩
  | 112 => ⟨S2048, .f32⟩
  | 113 => ⟨S1x2048, .f32⟩
  | 114 => ⟨S2048, .f32⟩
  | 115 => ⟨S2048, .f32⟩
  | 116 => ⟨S2048, .f32⟩
  | 117 => ⟨S2048, .f32⟩
  | 118 => ⟨S2048, .f32⟩
  | 119 => ⟨S2048, .f32⟩
  | 120 => ⟨S2048, .f32⟩
  | 121 => ⟨S2048, .f32⟩
  | 122 => ⟨S2048, .f32⟩
  | 123 => ⟨S2048, .f32⟩
  | 124 => ⟨S2048, .f32⟩
  | 125 => ⟨S_, .f32⟩
  | 126 => ⟨S_, .f32⟩
  | 127 => ⟨S_, .f32⟩
  | _ => ⟨S2048x1024, .f32⟩

abbrev hbmTy0_1 (i : Nat) : BufTy := match i % 128 with
  | 0 => ⟨S_, .f32⟩
  | 1 => ⟨S2048x1, .f32⟩
  | 2 => ⟨S2048x1024, .f32⟩
  | 3 => ⟨S2048x1024, .f32⟩
  | 4 => ⟨S_, .f32⟩
  | 5 => ⟨S2048x1, .f32⟩
  | 6 => ⟨S2048x1, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S_, .f32⟩
  | 13 => ⟨S2048, .f32⟩
  | 14 => ⟨S2048, .f32⟩
  | 15 => ⟨S_, .f32⟩
  | 16 => ⟨S2048x1, .f32⟩
  | 17 => ⟨S2048x1, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S_, .f32⟩
  | 26 => ⟨S2048, .f32⟩
  | 27 => ⟨S2048, .f32⟩
  | 28 => ⟨S2048, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_v0 : Ref sig .tc := ⟨.hbm, 19, rfl⟩
abbrev main_call2_cst : Ref sig .tc := ⟨.hbm, 20, rfl⟩
abbrev main_call2_v1 : Ref sig .tc := ⟨.hbm, 21, rfl⟩
abbrev main_call2_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call3_v0 : Ref sig .tc := ⟨.hbm, 26, rfl⟩
abbrev main_call3_cst : Ref sig .tc := ⟨.hbm, 27, rfl⟩
abbrev main_call3_v1 : Ref sig .tc := ⟨.hbm, 28, rfl⟩
abbrev main_call3_v2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call4_v0 : Ref sig .tc := ⟨.hbm, 50, rfl⟩
abbrev main_call4_v1 : Ref sig .tc := ⟨.hbm, 51, rfl⟩
abbrev main_call4_c : Ref sig .tc := ⟨.hbm, 52, rfl⟩
abbrev main_call4_v2 : Ref sig .tc := ⟨.hbm, 53, rfl⟩
abbrev main_call4_v3 : Ref sig .tc := ⟨.hbm, 54, rfl⟩
abbrev main_call4_c_0 : Ref sig .tc := ⟨.hbm, 55, rfl⟩
abbrev main_call4_v4 : Ref sig .tc := ⟨.hbm, 56, rfl⟩
abbrev main_call4_v5 : Ref sig .tc := ⟨.hbm, 57, rfl⟩
abbrev main_call4_v6 : Ref sig .tc := ⟨.hbm, 58, rfl⟩
abbrev main_call4_c_1 : Ref sig .tc := ⟨.hbm, 59, rfl⟩
abbrev main_call4_v7 : Ref sig .tc := ⟨.hbm, 60, rfl⟩
abbrev main_call4_v8 : Ref sig .tc := ⟨.hbm, 61, rfl⟩
abbrev main_call4_c_2 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_v12 : Ref sig .tc := ⟨.hbm, 66, rfl⟩
abbrev main_call4_v13 : Ref sig .tc := ⟨.hbm, 67, rfl⟩
abbrev main_call4_v14 : Ref sig .tc := ⟨.hbm, 68, rfl⟩
abbrev main_v27 : Ref sig .tc := ⟨.hbm, 69, rfl⟩
abbrev main_call5_v0 : Ref sig .tc := ⟨.hbm, 70, rfl⟩
abbrev main_call5_v1 : Ref sig .tc := ⟨.hbm, 71, rfl⟩
abbrev main_call5_c : Ref sig .tc := ⟨.hbm, 72, rfl⟩
abbrev main_call5_v2 : Ref sig .tc := ⟨.hbm, 73, rfl⟩
abbrev main_call5_v3 : Ref sig .tc := ⟨.hbm, 74, rfl⟩
abbrev main_call5_c_0 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_c_1 : Ref sig .tc := ⟨.hbm, 79, rfl⟩
abbrev main_call5_v7 : Ref sig .tc := ⟨.hbm, 80, rfl⟩
abbrev main_call5_v8 : Ref sig .tc := ⟨.hbm, 81, rfl⟩
abbrev main_call5_c_2 : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_call5_v12 : Ref sig .tc := ⟨.hbm, 86, rfl⟩
abbrev main_call5_v13 : Ref sig .tc := ⟨.hbm, 87, rfl⟩
abbrev main_call5_v14 : Ref sig .tc := ⟨.hbm, 88, rfl⟩
abbrev main_v28 : Ref sig .tc := ⟨.hbm, 89, rfl⟩
abbrev main_cst_1 : Ref sig .tc := ⟨.hbm, 90, rfl⟩
abbrev main_v29 : Ref sig .tc := ⟨.hbm, 91, rfl⟩
abbrev main_cst_2 : Ref sig .tc := ⟨.hbm, 92, rfl⟩
abbrev main_v30 : Ref sig .tc := ⟨.hbm, 93, rfl⟩
abbrev main_v31 : Ref sig .tc := ⟨.hbm, 94, rfl⟩
abbrev main_cst_3 : Ref sig .tc := ⟨.hbm, 95, rfl⟩
abbrev main_v32 : Ref sig .tc := ⟨.hbm, 96, rfl⟩
abbrev main_cst_4 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_5 : Ref sig .tc := ⟨.hbm, 125, rfl⟩
abbrev main_v60 : Ref sig .tc := ⟨.hbm, 126, rfl⟩
abbrev main_cst_6 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_cst_7 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_call6_v0 : Ref sig .tc := ⟨.hbm, 139, rfl⟩
abbrev main_call6_cst : Ref sig .tc := ⟨.hbm, 140, rfl⟩
abbrev main_call6_v1 : Ref sig .tc := ⟨.hbm, 141, rfl⟩
abbrev main_v71 : Ref sig .tc := ⟨.hbm, 142, rfl⟩
abbrev main_cst_8 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_call7_v0 : Ref sig .tc := ⟨.hbm, 152, rfl⟩
abbrev main_call7_cst : Ref sig .tc := ⟨.hbm, 153, rfl⟩
abbrev main_call7_v1 : Ref sig .tc := ⟨.hbm, 154, rfl⟩
abbrev main_v80 : Ref sig .tc := ⟨.hbm, 155, rfl⟩
abbrev main_v81 : Ref sig .tc := ⟨.hbm, 156, rfl⟩
abbrev main_cst_9 : Ref sig .tc := ⟨.hbm, 157, rfl⟩
abbrev main_v82 : Ref sig .tc := ⟨.hbm, 158, rfl⟩
abbrev main_cst_10 : Ref sig .tc := ⟨.hbm, 159, rfl⟩
abbrev main_v83 : Ref sig .tc := ⟨.hbm, 160, rfl⟩
abbrev main_cst_11 : Ref sig .tc := ⟨.hbm, 161, rfl⟩
abbrev main_v84 : Ref sig .tc := ⟨.hbm, 162, rfl⟩
abbrev main_v85 : Ref sig .tc := ⟨.hbm, 163, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  bcast_S2048x1024_S1x2048x1024_1_2 : S2048x1024.BroadcastsInDim S1x2048x1024 (![1, 2] : Fin 2 → Fin S1x2048x1024.rank)
  concatenates_S1x2048x1024_S1x2048x1024_S1x2048x1024_S1x2048x1024_S4x2048x1024_d0 : Shape.Concatenates [S1x2048x1024, S1x2048x1024, S1x2048x1024, S1x2048x1024] S4x2048x1024 0
  transposes_S4x2048x2048_S4x2048x2048_0_2_1 : S4x2048x2048.Transposes [0, 2, 1] S4x2048x2048
  bcast_S_S4x2048x2048 : S_.BroadcastsInDim S4x2048x2048 (![] : Fin 0 → Fin S4x2048x2048.rank)
  bcast_S_S2048 : S_.BroadcastsInDim S2048 (![] : Fin 0 → Fin S2048.rank)
  concatenates_S2048x1_S2048x1_S2048x2_d1 : Shape.Concatenates [S2048x1, S2048x1] S2048x2 1
  reducesTo_S4x2048x2048_S2048_d0_2 : S4x2048x2048.ReducesTo [0, 2] S2048
  reducesTo_S4x2048_S2048_d0 : S4x2048.ReducesTo [0] S2048
  slices_S4x2048_S1x2048_1_0 : S4x2048.Slices ![1, 0] S1x2048
  shapeCasts_S1x2048_S2048 : S1x2048.ShapeCasts S2048
  slices_S4x2048_S1x2048_2_0 : S4x2048.Slices ![2, 0] S1x2048
  slices_S4x2048_S1x2048_3_0 : S4x2048.Slices ![3, 0] S1x2048
  slices_S4x2048_S1x2048_0_0 : S4x2048.Slices ![0, 0] S1x2048
  reducesTo_S2048_S_d0 : S2048.ReducesTo [0] S_
  bcast_S_S2048x1 : S_.BroadcastsInDim S2048x1 (![] : Fin 0 → Fin S2048x1.rank)
  dot_S4x2048x1024_S2048x1024_S4x2048x2048_2_1_01_0_n_n_wf : DotDims.WF S4x2048x1024 S2048x1024 S4x2048x2048 [2] [1] [0, 1] [0] [] []
  gather_S4x2048x2048_S2048x2_S4x2048_0_12_n_n_12_1_411_wf : GatherDims.WF S4x2048x2048 S2048x2 S4x2048 [0] [1, 2] [] [1, 2] [] 1 ![4, 1, 1]

variable [Facts₀]

def dot_S4x2048x1024_S2048x1024_S4x2048x2048_2_1_01_0_n_n : DotDims S4x2048x1024 S2048x1024 S4x2048x2048 where
  lhsContracting := [2]
  rhsContracting := [1]
  lhsNonContracting := [0, 1]
  rhsNonContracting := [0]
  lhsBatch := []
  rhsBatch := []
  wf := dot_S4x2048x1024_S2048x1024_S4x2048x2048_2_1_01_0_n_n_wf
def gather_S4x2048x2048_S2048x2_S4x2048_0_12_n_n_12_1_411 : GatherDims S4x2048x2048 S2048x2 S4x2048 where
  offsetDims := [0]
  collapsedSliceDims := [1, 2]
  operandBatchingDims := []
  startIndicesBatchingDims := []
  startIndexMap := [1, 2]
  indexVectorDim := 1
  sliceSizes := ![4, 1, 1]
  wf := gather_S4x2048x2048_S2048x2_S4x2048_0_12_n_n_12_1_411_wf

class Facts : Prop extends Facts₀ where

variable [Facts]
-- ==== Proof.Contrast.lean ====
/-
  The per-row contrastive loss as a function of the four tables of unit rows, in the two arrangements the
  two programs compute it in, and the law that joins them.

  For an anchor table `a` and a key table `c`, `ex a c b n = exp (⟨a_b, c_n⟩ · κ)` with `κ = 1 / T`, `T` the
  binary32 value of the temperature.  Every `ex` is an exponential, so it is never `⊥`; this alone makes the
  two arrangements agree on every extended real (no finiteness of the tables is used):

  * the kernel forms, per anchor, `(Σ_t D_t − D_self) / (Σ_t S_t − D_self)` with `D_t` the diagonal term of key
    table `t` and `S_t` its row sum;
  * the reference forms `A / (A + (Σ_{t,n} ex − Σ_t D_t))` with `A` the sum of the three diagonal terms other
    than the anchor's own.

  When `D_self` is real and `A` is real both are `A / (T − D_self)`; when `D_self = ⊤` both numerators or
  denominators degenerate so that both quotients are `0`; likewise when `A = ⊤`.
-/
import Idealize.ShloMosaic.PureOps.Ideal
import Idealize.ShloMosaic.Lib.ValueIdx

noncomputable section

namespace Cert.Contrast

open Idealize.ShloMosaic

/-- A table of 2048 rows of 1024 entries. -/
abbrev Tab := Fin 2048 → Fin 1024 → EReal

/-- An array of 2048 × 1024 extended reals read as a table of rows. -/
def tab (x : (⟨2, ![2048, 1024]⟩ : Shape).Idx → EReal) : Tab := fun b d => x (ValueIdx.ix2 b d)

/-- Row `r` of the `p`-th block of 512 consecutive rows. -/
def rowOf (p : ℕ) (hp : p < 4) (r : Fin 512) : Fin 2048 := ⟨p * 512 + r.val, by omega⟩

/-- The reciprocal temperature: `1 / T` for `T = 13421773 / 2^27`, the binary32 value nearest `0.1`. -/
def invT : EReal := ((134217728 / 13421773 : ℝ) : EReal)

/-- The temperature `T` itself. -/
def temp : EReal := ((13421773 / 134217728 : ℝ) : EReal)

/-- The inner product of row `b` of `a` with row `n` of `c`. -/
def dot (a c : Tab) (b n : Fin 2048) : EReal := ∑ d : Fin 1024, a b d * c n d

/-- The exponentiated, temperature-scaled similarity of row `b` of `a` and row `n` of `c`. -/
def ex (a c : Tab) (b n : Fin 2048) : EReal := Ideal.exp (dot a c b n * invT)

/-- The sum of row `b`'s similarities against every row of `c`. -/
def rowSum (a c : Tab) (b : Fin 2048) : EReal := ∑ n : Fin 2048, ex a c b n

/-- The four key tables in the order english, korean, english→korean, korean→english. -/
def pick (e k et kt : Tab) : Fin 4 → Tab
  | 0 => e
  | 1 => k
  | 2 => et
  | 3 => kt

/-- The kernel's quotient for anchor table `a` whose own key table is `self`. -/
def quotK (a c0 c1 c2 c3 self : Tab) (b : Fin 2048) : EReal :=
  Ideal.div ((ex a c0 b b + ex a c1 b b + ex a c2 b b + ex a c3 b b) - ex a self b b)
    ((rowSum a c0 b + rowSum a c1 b + rowSum a c2 b + rowSum a c3 b) - ex a self b b)

/-- The kernel's loss of row `b`. -/
def rowLossK (e k et kt : Tab) (b : Fin 2048) : EReal :=
  (0 - Ideal.log (quotK e e k et kt e b)) + (0 - Ideal.log (quotK k e k et kt k b))

/-- The reference's quotient for anchor `a`: `p q r` are the three key tables that are not the anchor's own. -/
def quotR (a : Tab) (cs : Fin 4 → Tab) (p q r : Fin 4) (b : Fin 2048) : EReal :=
  Ideal.div ((ex a (cs p) b b + ex a (cs q) b b) + ex a (cs r) b b)
    (((ex a (cs p) b b + ex a (cs q) b b) + ex a (cs r) b b)
      + ((0 + ∑ t : Fin 4, ∑ n : Fin 2048, ex a (cs t) b n) - (0 + ∑ t : Fin 4, ex a (cs t) b b)))

/-- The reference's loss of row `b`. -/
def rowLossR (e k et kt : Tab) (b : Fin 2048) : EReal :=
  (-Ideal.log (quotR e (pick e k et kt) 1 2 3 b)) + (-Ideal.log (quotR k (pick e k et kt) 0 2 3 b))

/-! ## The similarity in the reference's spelling -/

/-- Dividing by the temperature is multiplying by its reciprocal, on every extended real. -/
theorem div_temp (x : EReal) : Ideal.div x temp = x * invT := by
  unfold temp invT
  rw [Ideal.div_coe (by norm_num : (13421773 / 134217728 : ℝ) ≠ 0)]
  norm_num

/-- The reference contracts the key row against the anchor row and divides by the temperature. -/
theorem ex_ref (a c : Tab) (b n : Fin 2048) :
    Ideal.exp (Ideal.div (∑ d : Fin 1024, c n d * a b d) temp) = ex a c b n := by
  unfold ex dot
  rw [div_temp]
  congr 2
  exact Finset.sum_congr rfl fun d _ => mul_comm _ _

/-! ## Exponentials are never `⊥` -/

theorem exp_nonneg (x : EReal) : 0 ≤ Ideal.exp x := by
  induction x using EReal.rec with
  | bot => exact le_of_eq rfl
  | top => exact le_top
  | coe r => exact EReal.coe_nonneg.mpr (Real.exp_pos r).le

theorem ex_nonneg (a c : Tab) (b n : Fin 2048) : 0 ≤ ex a c b n := exp_nonneg _

theorem rowSum_nonneg (a c : Tab) (b : Fin 2048) : 0 ≤ rowSum a c b :=
  Finset.sum_nonneg fun n _ => ex_nonneg a c b n

theorem ex_le_rowSum (a c : Tab) (b : Fin 2048) : ex a c b b ≤ rowSum a c b :=
  Finset.single_le_sum (f := fun n => ex a c b n) (fun n _ => ex_nonneg a c b n) (Finset.mem_univ b)

/-! ## The law joining the two arrangements -/

/-- The core identity: with `D` the anchor's own diagonal term, `A` the sum of the other three and `T` the
    total, all non-negative and `D, A ≤ T`, the kernel's quotient is the reference's, on every extended real. -/
theorem quot_core {D A T : EReal} (hD : 0 ≤ D) (hA : 0 ≤ A) (hDT : D ≤ T) (hAT : A ≤ T) :
    Ideal.div ((D + A) - D) (T - D) = Ideal.div A (A + (T - (D + A))) := by
  induction D using EReal.rec with
  | bot => exact absurd hD (by decide)
  | top =>
    obtain rfl : T = ⊤ := top_le_iff.mp hDT
    have hA' : A ≠ ⊥ := fun h => absurd (h ▸ hA) (by decide)
    rw [EReal.top_add_of_ne_bot hA']
    simp [Ideal.div]
  | coe d =>
    induction A using EReal.rec with
    | bot => exact absurd hA (by decide)
    | top =>
      obtain rfl : T = ⊤ := top_le_iff.mp hAT
      simp [Ideal.div]
    | coe a =>
      induction T using EReal.rec with
      | bot => exact absurd hDT (by simp)
      | top =>
        have h3 : (a : EReal) + (⊤ - ((d : EReal) + (a : EReal))) = ⊤ := by
          rw [← EReal.coe_add, EReal.top_sub_coe, EReal.coe_add_top]
        rw [h3]; simp [Ideal.div]
      | coe t =>
        have h1 : ((d : EReal) + (a : EReal)) - (d : EReal) = (a : EReal) := by
          rw [← EReal.coe_add, ← EReal.coe_sub]; congr 1; ring
        have h2 : (a : EReal) + ((t : EReal) - ((d : EReal) + (a : EReal))) = (t : EReal) - (d : EReal) := by
          rw [← EReal.coe_add, ← EReal.coe_sub, ← EReal.coe_add, ← EReal.coe_sub]; congr 1; ring
        rw [h1, h2]

variable {D0 D1 D2 D3 S0 S1 S2 S3 : EReal}

/-- The core identity for an anchor whose own key table is the first of the four. -/
theorem quot_four_first (h0 : 0 ≤ D0) (h1 : 0 ≤ D1) (h2 : 0 ≤ D2) (h3 : 0 ≤ D3)
    (l0 : D0 ≤ S0) (l1 : D1 ≤ S1) (l2 : D2 ≤ S2) (l3 : D3 ≤ S3) :
    Ideal.div ((D0 + D1 + D2 + D3) - D0) ((S0 + S1 + S2 + S3) - D0)
      = Ideal.div ((D1 + D2) + D3)
          (((D1 + D2) + D3) + ((0 + (S0 + S1 + S2 + S3)) - (0 + (D0 + D1 + D2 + D3)))) := by
  have e : D0 + D1 + D2 + D3 = D0 + ((D1 + D2) + D3) := by simp only [add_assoc]
  have hS0 : 0 ≤ S0 := h0.trans l0
  rw [zero_add, zero_add, e]
  refine quot_core h0 (add_nonneg (add_nonneg h1 h2) h3) ?_ ?_
  · exact l0.trans (le_add_of_nonneg_right (h3.trans l3) |>.trans' (le_add_of_nonneg_right (h2.trans l2) |>.trans'
      (le_add_of_nonneg_right (h1.trans l1))))
  · exact add_le_add (add_le_add (le_add_of_nonneg_of_le hS0 l1) l2) l3

/-- The core identity for an anchor whose own key table is the second of the four. -/
theorem quot_four_second (h0 : 0 ≤ D0) (h1 : 0 ≤ D1) (h2 : 0 ≤ D2) (h3 : 0 ≤ D3)
    (l0 : D0 ≤ S0) (l1 : D1 ≤ S1) (l2 : D2 ≤ S2) (l3 : D3 ≤ S3) :
    Ideal.div ((D0 + D1 + D2 + D3) - D1) ((S0 + S1 + S2 + S3) - D1)
      = Ideal.div ((D0 + D2) + D3)
          (((D0 + D2) + D3) + ((0 + (S0 + S1 + S2 + S3)) - (0 + (D0 + D1 + D2 + D3)))) := by
  have e : D0 + D1 + D2 + D3 = D1 + ((D0 + D2) + D3) := by
    rw [add_comm D0 D1]; simp only [add_assoc]
  have hS1 : 0 ≤ S1 := h1.trans l1
  rw [zero_add, zero_add, e]
  refine quot_core h1 (add_nonneg (add_nonneg h0 h2) h3) ?_ ?_
  · exact (le_add_of_nonneg_of_le (h0.trans l0) l1).trans
      ((le_add_of_nonneg_right (h2.trans l2)).trans (le_add_of_nonneg_right (h3.trans l3)))
  · exact add_le_add (add_le_add (le_add_of_le_of_nonneg l0 hS1) l2) l3

/-- The kernel's loss of a row is the reference's, for any four tables of extended reals. -/
theorem rowLossK_eq_rowLossR (e k et kt : Tab) (b : Fin 2048) :
    rowLossK e k et kt b = rowLossR e k et kt b := by
  unfold rowLossK rowLossR quotK quotR
  simp only [Fin.sum_univ_four, pick]
  rw [zero_sub, zero_sub]
  congr 2
  · exact congrArg Ideal.log (quot_four_first (ex_nonneg _ _ _ _) (ex_nonneg _ _ _ _) (ex_nonneg _ _ _ _) (ex_nonneg _ _ _ _)
      (ex_le_rowSum _ _ _) (ex_le_rowSum _ _ _) (ex_le_rowSum _ _ _) (ex_le_rowSum _ _ _))
  · exact congrArg Ideal.log (quot_four_second (ex_nonneg _ _ _ _) (ex_nonneg _ _ _ _) (ex_nonneg _ _ _ _) (ex_nonneg _ _ _ _)
      (ex_le_rowSum _ _ _) (ex_le_rowSum _ _ _) (ex_le_rowSum _ _ _) (ex_le_rowSum _ _ _))

end Cert.Contrast

end
-- ==== Proof.Consts.lean ====
/- The float constants the two programs spell, as the extended reals their patterns denote. -/
import Idealize.ShloMosaic.PureOps.Ideal

noncomputable section

namespace Cert.Consts

open Idealize.ShloMosaic

/-- The pattern of `+0.0` denotes `0`. -/
theorem ofBits_zero : Ideal.ofBits .f32 0#32 = 0 := by
  simp [Ideal.ofBits, Ideal.ieee]

/-- The reference's temperature `0.1` in binary32 is the dyadic `13421773 / 2^27`. -/
theorem ofBits_temp : Ideal.ofBits .f32 0x3DCCCCCD#32 = ((13421773 / 134217728 : ℝ) : EReal) := by
  simp [Ideal.ofBits, Ideal.ieee, -EReal.coe_mul]; norm_num

end Cert.Consts

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibLayout.lean ====
/-
  Layout operations read at an index given by coordinates, beyond the library's forms: the keepdims column casts
  [a] ↔ [a,1], the column broadcast [a,1] → [a,b], the rank-3 casts and broadcasts a pairwise (row × column × channel)
  computation meets, a one-column slice of a matrix, a static element extraction, and the source index of a
  last-axis reduction. Every lemma is the library's general reading (an operand index with the same row-major
  position for a cast, the trailing coordinates with 0 on unit axes for a broadcast) with both indices written by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibLayout

open Idealize.ShloMosaic Idealize.ShloMosaic.ValueIdx

variable {α : Type}

/-! ## Shape casts -/

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] cast to a vector [a] reads, at i, the operand at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column [a, 1] cast to [a, 1, 1] reads, at (i, u, w), the operand at (i, 0). -/
theorem shapeCast_a1_a11_apply {a : ℕ} (x : (⟨2, ![a, 1]⟩ : Shape).Idx → α)
    (h : (⟨2, ![a, 1]⟩ : Shape).ShapeCasts ⟨3, ![a, 1, 1]⟩) (i : Fin a) (u w : Fin 1) :
    shapeCast ⟨3, ![a, 1, 1]⟩ x h (ix3 i u w) = x (ix2 i (0 : Fin 1)) :=
  shapeCast_apply x h _ _ (by
    have hu : u.val = 0 := by omega
    have hw : w.val = 0 := by omega
    rw [Shape.rowMajor_val_three, Shape.rowMajor_val_two]
    show i.val * 1 + 0 = (i.val * 1 + u.val) * 1 + w.val
    rw [hu, hw, Nat.mul_one, Nat.add_zero, Nat.mul_one, Nat.add_zero])

/-- A vector [a] cast to [1, 1, a] reads, at (u, w, i), the operand at i. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- A matrix [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts -/

/-- A column [a, 1] broadcast to [a, b] reads, at (p, c), the operand at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An array [a, 1, 1] broadcast to [a, 1, c] reads, at (p, u, k), the operand at (p, 0, 0). -/
theorem broadcastTo_a11_a1c_apply {a c : ℕ} (v : (⟨3, ![a, 1, 1]⟩ : Shape).Idx → α)
    (h : (⟨3, ![a, 1, 1]⟩ : Shape).Broadcasts ⟨3, ![a, 1, c]⟩) (p : Fin a) (u : Fin 1) (k : Fin c) :
    broadcastTo ⟨3, ![a, 1, c]⟩ v h (ix3 p u k) = v (ix3 p (0 : Fin 1) (0 : Fin 1)) := by
  refine broadcastTo_apply v h (ix3 p u k) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A row [1, 1, c] broadcast to [a, b, c] reads, at (p, q, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An array [a, b, 1] broadcast to [a, b, c] reads, at (p, q, k), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array [a, 1, c] broadcast to [a, b, c] reads, at (p, q, k), the operand at (p, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-! ## One column of a matrix, one element of a vector -/

/-- The one-column slice of a matrix [n, m] at column o reads, at (i, u), the operand at (i, o). -/
theorem slice_column_apply {n m : ℕ} (o : ℕ) (X : (⟨2, ![n, m]⟩ : Shape).Idx → α)
    (h : (⟨2, ![n, m]⟩ : Shape).Slices ![0, o] ⟨2, ![n, 1]⟩) (i : Fin n) (u : Fin 1) (k : Fin m) (hk : k.val = o) :
    extractStridedSlice ⟨2, ![n, 1]⟩ ![0, o] X h (ix2 i u) = X (ix2 i k) :=
  slice2_axis1_apply o X h i u k (by have := u.isLt; omega)

/-- The element of a vector [n] extracted at the static position p is the operand at p. -/
theorem extractAt_ix1 {n : ℕ} (p : ℕ) (x : (⟨1, ![n]⟩ : Shape).Idx → α)
    (h : ∀ a, (![p] : Fin 1 → ℕ) a < (⟨1, ![n]⟩ : Shape).size a) (k : Fin n) (hk : k.val = p) :
    extractAt ![p] x h = x (ix1 k) := by
  unfold extractAt
  refine congrArg x (funext fun a => Fin.ext ?_)
  match a with
  | ⟨0, _⟩ => exact hk.symm

/-! ## The source index of a reduction over the last axis -/

/-- Reducing a matrix [a, b] over its columns: the source index over row r with column k is (r, k). -/
theorem lift_ix1_axis1 {a b : ℕ} (h : (⟨2, ![a, b]⟩ : Shape).Reduces [1] ⟨1, ![a]⟩) (r : Fin a) (k : Fin b) :
    h.lift (ix1 r) k = ix2 r k := by
  funext c
  refine Fin.ext ?_
  match c with
  | ⟨0, _⟩ => rfl
  | ⟨1, _⟩ => rfl

/-- Reducing an array [a, b, c] over its last axis: the source index over (r, s) with last coordinate k is (r, s, k). -/
theorem lift_ix2_axis2 {a b c : ℕ} (h : (⟨3, ![a, b, c]⟩ : Shape).Reduces [2] ⟨2, ![a, b]⟩) (r : Fin a) (s : Fin b)
    (k : Fin c) : h.lift (ix2 r s) k = ix3 r s k := by
  funext d
  refine Fin.ext ?_
  match d with
  | ⟨0, _⟩ => rfl
  | ⟨1, _⟩ => rfl
  | ⟨2, _⟩ => rfl

end Cert.LibLayout

end
-- ==== Proof.KTile.lean ====
/-
  The kernel body's vocabulary, each term read at an entry.

  One tile of the body is `exp ((A · Cᵀ) · κ)` for a block `A` of 512 anchor rows and a whole key table `C`:
  at (r, n) it is the exponential of the inner product of row r of `A` with row n of `C`, scaled by the
  reciprocal temperature.  A tile is summed along its rows and kept as a column (`colSum`); the same sum
  after every entry off the global diagonal has been replaced by zero keeps exactly the diagonal entry
  (`diagOf`): the diagonal of block p is the set of (r, n) with n = 512 p + r.
-/
import proofs.«170110_j13494787244306_2_alg».proof.Proof.Gen.KernelIdeal
import proofs.«170110_j13494787244306_2_alg».proof.Proof.Contrast
import proofs.«170110_j13494787244306_2_alg».proof.Proof.Consts
import proofs.«170110_j13494787244306_2_alg».proof.Proof.LibMatmulRows
import proofs.«170110_j13494787244306_2_alg».proof.Proof.LibRowOps
import proofs.«170110_j13494787244306_2_alg».proof.Proof.LibLayout
import Idealize.ShloMosaic.PureOps.IdealRules
import Idealize.ShloMosaic.Lib.ValueIdx
import Idealize.ShloMosaic.Lib.Pipeline.Value
import Idealize.ShloMosaic.Lib.Affine

noncomputable section

namespace Cert.KernelIdeal.Tile

open Cert.KernelIdeal Cert.KernelIdeal.Gen Idealize.ShloMosaic Idealize.ShloMosaic.ValueIdx

/-- The named reciprocal temperature denotes `134217728 / 13421773`. -/
theorem inv_temp : Named.named (F := Ideal) Cert.KernelIdeal.κ "inv_temp" (φ := .f32) 0x41200000#32 = Cert.Contrast.invT :=
  IdealRules.named_const.ideal_named_scalar _ _ _ _ rfl

/-- One tile: the exponentials of the scaled inner products of the rows of `A` with the rows of `C`. -/
def expTile (A : FVec Ideal S512x1024 .bf16) (C : FVec Ideal S2048x1024 .bf16) : FVec Ideal S512x2048 .f32 :=
  exp (mulf (matmul dot_S512x1024_S2048x1024_S512x2048_1_1_0_0_n_n none A C (constant S512x2048 .f32 0x00000000#32))
    (broadcast S512x2048 (Named.named Cert.KernelIdeal.κ "inv_temp" 0x41200000#32)))

theorem expTile_apply (A : FVec Ideal S512x1024 .bf16) (C : FVec Ideal S2048x1024 .bf16) (r : Fin 512) (n : Fin 2048) :
    expTile A C (ix2 r n) = Ideal.exp ((∑ d : Fin 1024, A (ix2 r d) * C (ix2 n d)) * Cert.Contrast.invT) := by
  -- the product onto the zero array, at (r, n): the inner product of row r of A with row n of C
  have hm : matmul dot_S512x1024_S2048x1024_S512x2048_1_1_0_0_n_n none A C (constant S512x2048 .f32 0x00000000#32) (ix2 r n)
      = ∑ d : Fin 1024, A (ix2 r d) * C (ix2 n d) :=
    Cert.MatmulRows.zero_acc_apply dot_S512x1024_S2048x1024_S512x2048_1_1_0_0_n_n_wf none A C r n
  -- the exponential, the product and the repeated scalar read entry by entry
  show Ideal.exp (matmul dot_S512x1024_S2048x1024_S512x2048_1_1_0_0_n_n none A C (constant S512x2048 .f32 0x00000000#32) (ix2 r n)
      * Named.named (F := Ideal) Cert.KernelIdeal.κ "inv_temp" (φ := .f32) 0x41200000#32) = _
  rw [hm, inv_temp]

/-- The sum of each row of a tile, kept as a column. -/
def colSum (X : FVec Ideal S512x2048 .f32) : FVec Ideal S512x1 .f32 :=
  shapeCast S512x1 (multiReduction .add [1] S512 X 0x00000000#32 reduces_S512x2048_S512 (.inl rfl) rfl) shapeCasts_S512_S512x1

theorem colSum_apply (X : FVec Ideal S512x2048 .f32) (r : Fin 512) :
    colSum X (ix2 r (0 : Fin 1)) = ∑ n : Fin 2048, X (ix2 r n) :=
  -- the column's entry (r, 0) is the vector's entry r, which is the sum of row r
  (Cert.LibLayout.shapeCast_a_a1_apply _ shapeCasts_S512_S512x1 r 0).trans
    (Cert.RowOps.sum_over_columns_apply X reduces_S512x2048_S512 (.inl rfl) rfl r)

/-- The diagonal mask of block `i`: entry (r, n) is set exactly when `n = 512 i + r`. -/
def eye (i : grid0.Coords) : IVec S512x2048 1 :=
  cmpi .eq (addi (iota .tc S512x2048 32 [0] iota_S512x2048_d0_w32)
      (broadcast S512x2048 (Scalar.muli (BitVec.ofNat 32 (i 0).val) 512#32)))
    (iota .tc S512x2048 32 [1] iota_S512x2048_d1_w32)

/-- On 32-bit words, for a row r < 512 of block p < 4 and a column n < 2048: r + 512 p = n as words exactly when it
    holds as numbers (both sides are below 2³², so neither wraps). -/
private theorem word_eq (p r n : ℕ) (hp : p < 4) (hr : r < 512) (hn : n < 2048) :
    (BitVec.ofNat 32 r + BitVec.ofNat 32 p * 512#32 = BitVec.ofNat 32 n) ↔ p * 512 + r = n := by
  constructor
  · intro h
    have h' := congrArg BitVec.toNat h
    simp only [BitVec.toNat_add, BitVec.toNat_mul, BitVec.toNat_ofNat] at h'
    omega
  · rintro rfl
    apply BitVec.eq_of_toNat_eq
    simp only [BitVec.toNat_add, BitVec.toNat_mul, BitVec.toNat_ofNat]
    omega

/-- The mask of block `i` is set at (r, n) exactly when n is row r of block `i`: n = 512 i + r. -/
private theorem eye_apply (i : grid0.Coords) (r : Fin 512) (n : Fin 2048) :
    eye i (ix2 r n) = 1#1 ↔ n = Cert.Contrast.rowOf (i 0).val (i 0).isLt r := by
  -- the two coordinate arrays read their coordinate
  have h0 : iota .tc S512x2048 32 [0] iota_S512x2048_d0_w32 (ix2 r n) = BitVec.ofNat 32 r.val :=
    iota_single_apply _ _ _ _ _ _
  have h1 : iota .tc S512x2048 32 [1] iota_S512x2048_d1_w32 (ix2 r n) = BitVec.ofNat 32 n.val :=
    iota_single_apply _ _ _ _ _ _
  show IntOp.cmpi .eq (IntOp.addi (iota .tc S512x2048 32 [0] iota_S512x2048_d0_w32 (ix2 r n))
      (Scalar.muli (BitVec.ofNat 32 (i 0).val) 512#32)) (iota .tc S512x2048 32 [1] iota_S512x2048_d1_w32 (ix2 r n)) = 1#1 ↔ _
  rw [h0, h1, IntOp.cmpi_eq]
  show BitVec.ofNat 32 r.val + BitVec.ofNat 32 (i 0).val * 512#32 = BitVec.ofNat 32 n.val ↔ _
  rw [word_eq _ _ _ (i 0).isLt r.isLt n.isLt]
  constructor
  · intro h; exact Fin.ext h.symm
  · intro h; rw [h]; rfl

/-- A tile masked to the diagonal of block `i`, at (r, n): the tile's entry when n = 512 i + r, zero elsewhere. -/
private theorem masked_apply (i : grid0.Coords) (X : FVec Ideal S512x2048 .f32) (r : Fin 512) (n : Fin 2048) :
    select (eye i) X (broadcast S512x2048 (Scalar.ofBits .f32 0x00000000#32)) (ix2 r n)
      = if n = Cert.Contrast.rowOf (i 0).val (i 0).isLt r then X (ix2 r n) else 0 := by
  show Scalar.select (eye i (ix2 r n)) (X (ix2 r n)) (Ideal.ofBits .f32 0#32) = _
  rw [Cert.Consts.ofBits_zero]
  by_cases h : n = Cert.Contrast.rowOf (i 0).val (i 0).isLt r
  · rw [if_pos h, (eye_apply i r n).mpr h, select_one]
  · rw [if_neg h, eq_zero_of_ne_one (fun e => h ((eye_apply i r n).mp e)), select_zero]

/-- The row sums of a tile whose entries off the diagonal are replaced by zero. -/
def diagOf (i : grid0.Coords) (X : FVec Ideal S512x2048 .f32) : FVec Ideal S512x1 .f32 :=
  colSum (select (eye i) X (broadcast S512x2048 (Scalar.ofBits .f32 0x00000000#32)))

theorem diagOf_apply (i : grid0.Coords) (X : FVec Ideal S512x2048 .f32) (r : Fin 512) :
    diagOf i X (ix2 r (0 : Fin 1)) = X (ix2 r (Cert.Contrast.rowOf (i 0).val (i 0).isLt r)) := by
  unfold diagOf
  -- the sum over a row of a function that vanishes off one column is its value at that column
  rw [colSum_apply, Finset.sum_congr rfl (fun n _ => masked_apply i X r n), Finset.sum_ite_eq',
    if_pos (Finset.mem_univ _)]

end Cert.KernelIdeal.Tile

end
-- ==== Proof.KBody.lean ====
/-
  What one grid point of the kernel writes, read at an entry.

  At grid point p the body loads rows [512 p, 512 p + 512) of the english and of the korean table (the two anchor
  blocks) and the four whole key tables, forms the eight tiles exp((A · Cᵀ) κ), accumulates per anchor block the
  row sums of its four tiles (the total), their diagonal entries (the positives) and the diagonal entry against
  the anchor's own table, and stores  −log((D − D_self)/(T − D_self))  summed over the two anchors.  Read at entry
  r this is the loss of row 512 p + r in the kernel's arrangement.

  Three steps: the one stored piece is the kernel's chain of operations over the six loaded values (any
  number system); at the extended reals that chain is one term over the tile vocabulary (by unfolding); that term
  read at an entry is the row loss (pointwise operations are read entrywise, a column sum and a diagonal term by
  the tile lemmas, a row of an anchor block is the row 512 p + r of its table).
-/
import proofs.«170110_j13494787244306_2_alg».proof.Proof.Gen.KernelIdeal.Frame
import proofs.«170110_j13494787244306_2_alg».proof.Proof.KTile
import Idealize.ShloMosaic.Lib.Pipeline.Value
import Idealize.ShloMosaic.Lib.Tactic

set_option maxRecDepth 16384

noncomputable section

namespace Cert.KernelIdeal.Body

open Cert.KernelIdeal Cert.KernelIdeal.Gen Cert.KernelIdeal.Tile Idealize.ShloMosaic Idealize.ShloMosaic.ValueIdx Idealize.SL.Sem
open Idealize.ShloMosaic.Tactic

section Piece
variable {F : FTy → Type} [FloatOps F] [Named F]

theorem hz1 : (![0] : Fin 1 → Nat) = fun _ => 0 := funext fun a => by fin_cases a <;> rfl
theorem hz2 : (![0, 0] : Fin 2 → Nat) = fun _ => 0 := funext fun a => by fin_cases a <;> rfl

/-- Rows [512 p, 512 p + 512) of a table, p the grid coordinate. -/
def rows (i : grid0.Coords) (x : Vec F S2048x1024 .bf16) : Vec F S512x1024 .bf16 :=
  View.ld x (Rect.unit (s := S2048x1024) (k0_off1 i) S512x1024.size (k0_off1_inb i))

/-- The stored vector as the kernel's chain of operations over the six loaded values. -/
def payChain (i : grid0.Coords) (v3 v6 : Vec F S512x1024 .bf16) (v8 v10 v12 v14 : Vec F S2048x1024 .bf16) : FVec F S512 .f32 :=
  k0_pay1
    (k0_pay18 k0_pay10 (k0_pay16 i v3 v8))
    (k0_pay27 (k0_pay3 v6) (k0_pay5 v10) (k0_pay8 i) k0_pay13)
    (k0_pay31 (k0_pay3 v6) (k0_pay6 v12) (k0_pay8 i) (k0_pay26 (k0_pay3 v6) (k0_pay4 v8) (k0_pay5 v10) (k0_pay8 i) k0_pay12))
    (k0_pay33 (k0_pay2 v3) (k0_pay7 v14) (k0_pay21 (k0_pay2 v3) (k0_pay5 v10) (k0_pay15 v3 v8)) (k0_pay28 (k0_pay2 v3) (k0_pay6 v12)))
    (k0_pay34 (k0_pay2 v3) (k0_pay7 v14) (k0_pay8 i) (k0_pay22 (k0_pay2 v3) (k0_pay5 v10) (k0_pay8 i) k0_pay9 (k0_pay16 i v3 v8)) (k0_pay28 (k0_pay2 v3) (k0_pay6 v12)))
    (k0_pay36 (k0_pay3 v6) (k0_pay6 v12) (k0_pay7 v14) (k0_pay24 (k0_pay3 v6) (k0_pay4 v8) (k0_pay5 v10) k0_pay11))
    (k0_pay37 (k0_pay3 v6) (k0_pay7 v14) (k0_pay8 i))

/-- What one grid point leaves in the output block: the chain of operations over the two row blocks and the four tables. -/
theorem out_piece (c : Dev nD) (i : grid0.Coords)
    (arg1 : Memref sig .tc .vmem S2048x1024 .bf16) (harg1 : arg1.IsWhole) (arg2 : Memref sig .tc .vmem S2048x1024 .bf16) (harg2 : arg2.IsWhole)
    (arg3 : Memref sig .tc .vmem S2048x1024 .bf16) (harg3 : arg3.IsWhole) (arg4 : Memref sig .tc .vmem S2048x1024 .bf16) (harg4 : arg4.IsWhole)
    (arg5 : Memref sig .tc .vmem S512 .f32) (harg5 : arg5.IsWhole)
    (x0 x1 x2 x3 : Vec F S2048x1024 .bf16) :
    out0_A_4 (F := F) c i arg1 harg1 arg2 harg2 arg3 harg3 arg4 harg4 arg5 harg5 x0 x1 x2 x3
      = payChain i (rows i x0) (rows i x1) x0 x1 x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz1]
  simp only [View.readAt_eq_ld, harg1.read_unread, harg2.read_unread, harg3.read_unread, harg4.read_unread,
    View.ld_unit_zero (S := S2048x1024) hz2]
  rfl

end Piece

section Value

/-- The zero column every accumulator starts from. -/
abbrev zcol : FVec Ideal S512x1 .f32 := broadcast S512x1 (Scalar.ofBits .f32 0x00000000#32)

/-- The accumulated row sums of the four tiles of an anchor block. -/
def tot (A : FVec Ideal S512x1024 .bf16) (C0 C1 C2 C3 : FVec Ideal S2048x1024 .bf16) : FVec Ideal S512x1 .f32 :=
  addf (addf (addf (addf zcol (colSum (expTile A C0))) (colSum (expTile A C1))) (colSum (expTile A C2))) (colSum (expTile A C3))

/-- The accumulated diagonal terms of the four tiles of an anchor block. -/
def dsum (i : grid0.Coords) (A : FVec Ideal S512x1024 .bf16) (C0 C1 C2 C3 : FVec Ideal S2048x1024 .bf16) : FVec Ideal S512x1 .f32 :=
  addf (addf (addf (addf zcol (diagOf i (expTile A C0))) (diagOf i (expTile A C1))) (diagOf i (expTile A C2))) (diagOf i (expTile A C3))

/-- The diagonal term of an anchor block against its own table. -/
def dself (i : grid0.Coords) (A : FVec Ideal S512x1024 .bf16) (C : FVec Ideal S2048x1024 .bf16) : FVec Ideal S512x1 .f32 :=
  addf zcol (diagOf i (expTile A C))

/-- The quotient column of an anchor block whose own table is `Cs`. -/
def quotCol (i : grid0.Coords) (A : FVec Ideal S512x1024 .bf16) (C0 C1 C2 C3 Cs : FVec Ideal S2048x1024 .bf16) : FVec Ideal S512x1 .f32 :=
  divf (subf (dsum i A C0 C1 C2 C3) (dself i A Cs)) (subf (tot A C0 C1 C2 C3) (dself i A Cs))

/-- The stored vector: the two negated logarithms added, the column cast to a vector. -/
def lossVec (i : grid0.Coords) (Ae Ak : FVec Ideal S512x1024 .bf16) (C0 C1 C2 C3 : FVec Ideal S2048x1024 .bf16) : FVec Ideal S512 .f32 :=
  shapeCast S512 (addf (subf zcol (log (quotCol i Ae C0 C1 C2 C3 C0))) (subf zcol (log (quotCol i Ak C0 C1 C2 C3 C1)))) shapeCasts_S512x1_S512

/-- The kernel's chain of operations is the stored vector over the (identically cast) loaded values. -/
theorem payChain_eq (i : grid0.Coords) (v3 v6 : Vec Ideal S512x1024 .bf16) (v8 v10 v12 v14 : Vec Ideal S2048x1024 .bf16) :
    payChain (F := Ideal) i v3 v6 v8 v10 v12 v14
      = lossVec i (k0_pay2 v3) (k0_pay3 v6) (k0_pay4 v8) (k0_pay5 v10) (k0_pay6 v12) (k0_pay7 v14) := rfl

end Value

section Read
open Cert.Contrast

theorem pay2_eq (v : Vec Ideal S512x1024 .bf16) : k0_pay2 v = v := shapeCast_self v _
theorem pay3_eq (v : Vec Ideal S512x1024 .bf16) : k0_pay3 v = v := shapeCast_self v _
theorem pay4_eq (v : Vec Ideal S2048x1024 .bf16) : k0_pay4 v = v := shapeCast_self v _
theorem pay5_eq (v : Vec Ideal S2048x1024 .bf16) : k0_pay5 v = v := shapeCast_self v _
theorem pay6_eq (v : Vec Ideal S2048x1024 .bf16) : k0_pay6 v = v := shapeCast_self v _
theorem pay7_eq (v : Vec Ideal S2048x1024 .bf16) : k0_pay7 v = v := shapeCast_self v _

/-- Entry (r, d) of the row block of grid point p is entry (512 p + r, d) of the table. -/
theorem rows_apply (i : grid0.Coords) (x : Vec Ideal S2048x1024 .bf16) (r : Fin 512) (d : Fin 1024) :
    rows i x (ix2 r d) = x (ix2 (rowOf (i 0).val (i 0).isLt r) d) := by
  unfold rows
  show x ((Rect.unit (s := S2048x1024) (k0_off1 i) S512x1024.size (k0_off1_inb i)).idx (ix2 r d)) = _
  congr 1
  funext a
  apply Fin.ext
  match a with
  | ⟨0, _⟩ =>
    show k0_off1 i 0 + 1 * r.val = (i 0).val * 512 + r.val
    rw [k0_off1_eq]
    show 512 * (i 0).val + 1 * r.val = (i 0).val * 512 + r.val
    omega
  | ⟨1, _⟩ =>
    show k0_off1 i 1 + 1 * d.val = d.val
    rw [k0_off1_eq]
    show 0 + 1 * d.val = d.val
    omega

/-- A tile of a row block at (r, n): the similarity of row 512 p + r of the anchor table and row n of the key table. -/
theorem tile_apply (i : grid0.Coords) (x xc : Vec Ideal S2048x1024 .bf16) (r : Fin 512) (n : Fin 2048) :
    expTile (rows i x) xc (ix2 r n) = ex (tab x) (tab xc) (rowOf (i 0).val (i 0).isLt r) n := by
  rw [expTile_apply]
  unfold ex dot tab
  refine congrArg (fun s => Ideal.exp (s * invT)) ?_
  exact Finset.sum_congr rfl fun d _ => by rw [rows_apply]

/-- The row sums of a tile of a row block. -/
theorem colSum_tile (i : grid0.Coords) (x xc : Vec Ideal S2048x1024 .bf16) (r : Fin 512) :
    colSum (expTile (rows i x) xc) (ix2 r (0 : Fin 1)) = rowSum (tab x) (tab xc) (rowOf (i 0).val (i 0).isLt r) := by
  rw [colSum_apply]
  unfold rowSum
  exact Finset.sum_congr rfl fun n _ => tile_apply i x xc r n

/-- The diagonal term of a tile of a row block. -/
theorem diag_tile (i : grid0.Coords) (x xc : Vec Ideal S2048x1024 .bf16) (r : Fin 512) :
    diagOf i (expTile (rows i x) xc) (ix2 r (0 : Fin 1))
      = ex (tab x) (tab xc) (rowOf (i 0).val (i 0).isLt r) (rowOf (i 0).val (i 0).isLt r) := by
  rw [diagOf_apply, tile_apply]

theorem zcol_apply (j : S512x1.Idx) : zcol j = 0 := Cert.Consts.ofBits_zero

theorem tot_apply (i : grid0.Coords) (x c0 c1 c2 c3 : Vec Ideal S2048x1024 .bf16) (r : Fin 512) :
    tot (rows i x) c0 c1 c2 c3 (ix2 r (0 : Fin 1))
      = rowSum (tab x) (tab c0) (rowOf (i 0).val (i 0).isLt r) + rowSum (tab x) (tab c1) (rowOf (i 0).val (i 0).isLt r)
        + rowSum (tab x) (tab c2) (rowOf (i 0).val (i 0).isLt r) + rowSum (tab x) (tab c3) (rowOf (i 0).val (i 0).isLt r) := by
  unfold tot
  rw [addf_apply, addf_apply, addf_apply, addf_apply, zcol_apply, zero_add, colSum_tile, colSum_tile, colSum_tile, colSum_tile]

theorem dsum_apply (i : grid0.Coords) (x c0 c1 c2 c3 : Vec Ideal S2048x1024 .bf16) (r : Fin 512) :
    dsum i (rows i x) c0 c1 c2 c3 (ix2 r (0 : Fin 1))
      = ex (tab x) (tab c0) (rowOf (i 0).val (i 0).isLt r) (rowOf (i 0).val (i 0).isLt r)
        + ex (tab x) (tab c1) (rowOf (i 0).val (i 0).isLt r) (rowOf (i 0).val (i 0).isLt r)
        + ex (tab x) (tab c2) (rowOf (i 0).val (i 0).isLt r) (rowOf (i 0).val (i 0).isLt r)
        + ex (tab x) (tab c3) (rowOf (i 0).val (i 0).isLt r) (rowOf (i 0).val (i 0).isLt r) := by
  unfold dsum
  rw [addf_apply, addf_apply, addf_apply, addf_apply, zcol_apply, zero_add, diag_tile, diag_tile, diag_tile, diag_tile]

theorem dself_apply (i : grid0.Coords) (x cs : Vec Ideal S2048x1024 .bf16) (r : Fin 512) :
    dself i (rows i x) cs (ix2 r (0 : Fin 1))
      = ex (tab x) (tab cs) (rowOf (i 0).val (i 0).isLt r) (rowOf (i 0).val (i 0).isLt r) := by
  unfold dself
  rw [addf_apply, zcol_apply, zero_add, diag_tile]

theorem quotCol_apply (i : grid0.Coords) (x c0 c1 c2 c3 cs : Vec Ideal S2048x1024 .bf16) (r : Fin 512) :
    quotCol i (rows i x) c0 c1 c2 c3 cs (ix2 r (0 : Fin 1))
      = quotK (tab x) (tab c0) (tab c1) (tab c2) (tab c3) (tab cs) (rowOf (i 0).val (i 0).isLt r) := by
  unfold quotCol quotK
  rw [divf_apply, subf_apply, subf_apply, dsum_apply, tot_apply, dself_apply]

/-- The stored vector at entry r is the loss of row 512 p + r. -/
theorem lossVec_apply (i : grid0.Coords) (x0 x1 x2 x3 : Vec Ideal S2048x1024 .bf16) (r : Fin 512) :
    lossVec i (rows i x0) (rows i x1) x0 x1 x2 x3 (ix1 r)
      = rowLossK (tab x0) (tab x1) (tab x2) (tab x3) (rowOf (i 0).val (i 0).isLt r) := by
  unfold lossVec rowLossK
  rw [Cert.LibLayout.shapeCast_a1_a_apply, addf_apply, subf_apply, subf_apply, zcol_apply]
  show (0 - Ideal.log (quotCol i (rows i x0) x0 x1 x2 x3 x0 (ix2 r (0 : Fin 1))))
      + (0 - Ideal.log (quotCol i (rows i x1) x0 x1 x2 x3 x1 (ix2 r (0 : Fin 1)))) = _
  rw [quotCol_apply, quotCol_apply]

end Read

/-- What grid point `i` leaves in the output block, at entry `r`: the kernel's loss of row `512 (i 0) + r`. -/
theorem out_eq (c : Dev nD) (i : grid0.Coords)
    (arg1 : Memref sig .tc .vmem S2048x1024 .bf16) (harg1 : arg1.IsWhole) (arg2 : Memref sig .tc .vmem S2048x1024 .bf16) (harg2 : arg2.IsWhole)
    (arg3 : Memref sig .tc .vmem S2048x1024 .bf16) (harg3 : arg3.IsWhole) (arg4 : Memref sig .tc .vmem S2048x1024 .bf16) (harg4 : arg4.IsWhole)
    (arg5 : Memref sig .tc .vmem S512 .f32) (harg5 : arg5.IsWhole)
    (x0 x1 x2 x3 : Vec Ideal S2048x1024 .bf16) (r : Fin 512) :
    out0_A_4 (F := Ideal) c i arg1 harg1 arg2 harg2 arg3 harg3 arg4 harg4 arg5 harg5 x0 x1 x2 x3 (ix1 r)
      = Cert.Contrast.rowLossK (Cert.Contrast.tab x0) (Cert.Contrast.tab x1) (Cert.Contrast.tab x2) (Cert.Contrast.tab x3)
          (Cert.Contrast.rowOf (i 0).val (i 0).isLt r) := by
  refine (congrFun (out_piece (F := Ideal) c i arg1 harg1 arg2 harg2 arg3 harg3 arg4 harg4 arg5 harg5 x0 x1 x2 x3) (ix1 r)).trans ?_
  rw [payChain_eq, pay2_eq, pay3_eq, pay4_eq, pay5_eq, pay6_eq, pay7_eq]
  exact lossVec_apply i x0 x1 x2 x3 r

end Cert.KernelIdeal.Body

end
-- ==== Proof.KArray.lean ====
/-
  The kernel's output array after the region.

  Grid point t writes rows [512 t, 512 t + 512) of the per-row loss of the four staged tables, each of which
  is staged whole (block index (0, 0) at every point); the four blocks tile the 2048 rows, so the array ends
  holding the loss of every row.
-/
import proofs.«170110_j13494787244306_2_alg».proof.Proof.Gen.KernelIdeal.Frame
import proofs.«170110_j13494787244306_2_alg».proof.Proof.KBody
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.ShloMosaic.ValueIdx
open Idealize.SL.Sem Cert.Contrast
open Idealize.ShloMosaic.Pipeline (Dat)

variable (m : (ℓ : Loc nD τ sig) → Buf (Elt Ideal) ℓ) (ρ : Dev nD → PrngReg)

/-- The loss of every row, as a vector over the 2048 rows, of four tables. -/
def lossVec (e k et kt : S2048x1024.Idx → EReal) : S2048.Idx → EReal :=
  fun j => rowLossK (tab e) (tab k) (tab et) (tab kt) ⟨(j 0).val, (j 0).isLt⟩

/-- The printed index maps over the four grid points: the output's block index is the point, the point's
    coordinate is the point, and every input's block index is (0, 0). -/
theorem idx_facts : ∀ t : Fin cfg0.N, win0_4.index t (0 : Fin 1) = t.val ∧ ((grid0.coords t) 0).val = t.val
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each input's block at any point is its whole table. -/
theorem tab_iblk0 (c : Dev nD) (t : Fin cfg0.N) : tab (iblk m c 0 t) = tab (V m c main_v12) := by
  funext b d
  show V m c main_v12 (((cfg0.win 0).blk t).view.emb (ix2 b d)) = V m c main_v12 (ix2 b d)
  obtain ⟨_, _, e0, e1, _⟩ := idx_facts t
  congr 1
  funext a; apply Fin.ext
  match a with
  | ⟨0, _⟩ => show win0_0.index t (0 : Fin 2) * 2048 + 1 * b.val = b.val; omega
  | ⟨1, _⟩ => show win0_0.index t (1 : Fin 2) * 1024 + 1 * d.val = d.val; omega

theorem tab_iblk1 (c : Dev nD) (t : Fin cfg0.N) : tab (iblk m c 1 t) = tab (V m c main_v13) := by
  funext b d
  show V m c main_v13 (((cfg0.win 1).blk t).view.emb (ix2 b d)) = V m c main_v13 (ix2 b d)
  obtain ⟨_, _, _, _, e0, e1, _⟩ := idx_facts t
  congr 1
  funext a; apply Fin.ext
  match a with
  | ⟨0, _⟩ => show win0_1.index t (0 : Fin 2) * 2048 + 1 * b.val = b.val; omega
  | ⟨1, _⟩ => show win0_1.index t (1 : Fin 2) * 1024 + 1 * d.val = d.val; omega

theorem tab_iblk2 (c : Dev nD) (t : Fin cfg0.N) : tab (iblk m c 2 t) = tab (V m c main_v14) := by
  funext b d
  show V m c main_v14 (((cfg0.win 2).blk t).view.emb (ix2 b d)) = V m c main_v14 (ix2 b d)
  obtain ⟨_, _, _, _, _, _, e0, e1, _⟩ := idx_facts t
  congr 1
  funext a; apply Fin.ext
  match a with
  | ⟨0, _⟩ => show win0_2.index t (0 : Fin 2) * 2048 + 1 * b.val = b.val; omega
  | ⟨1, _⟩ => show win0_2.index t (1 : Fin 2) * 1024 + 1 * d.val = d.val; omega

theorem tab_iblk3 (c : Dev nD) (t : Fin cfg0.N) : tab (iblk m c 3 t) = tab (V m c main_v15) := by
  funext b d
  show V m c main_v15 (((cfg0.win 3).blk t).view.emb (ix2 b d)) = V m c main_v15 (ix2 b d)
  obtain ⟨_, _, _, _, _, _, _, _, e0, e1⟩ := idx_facts t
  congr 1
  funext a; apply Fin.ext
  match a with
  | ⟨0, _⟩ => show win0_3.index t (0 : Fin 2) * 2048 + 1 * b.val = b.val; omega
  | ⟨1, _⟩ => show win0_3.index t (1 : Fin 2) * 1024 + 1 * d.val = d.val; omega

/-- What point `t` writes back is block `t` of the loss vector of the staged tables. -/
theorem flushed_eq (c : Dev nD) (t : Fin cfg0.N) :
    (dats (F := Ideal) m 0 c).flushed 4 t
      = ((cfg0.win 4).blk t).view.read (Elt Ideal)
          (lossVec (V m c main_v12) (V m c main_v13) (V m c main_v14) (V m c main_v15)) := by
  show (cfg0.win 4).cut (grid0.coords t) ((dats m 0 c).after 4 t) = _
  rw [after0_4]
  funext j
  obtain ⟨r, rfl⟩ : ∃ r : Fin 512, j = ix1 r := ⟨j 0, eq_ix1 j⟩
  have h := Cert.KernelIdeal.Body.out_eq c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t) r
  rw [tab_iblk0, tab_iblk1, tab_iblk2, tab_iblk3] at h
  have h1 : (cfg0.win 4).cut (grid0.coords t) (outsAt0 m c t) (ix1 r)
      = out0_A_4 (F := Ideal) c (grid0.coords t) (ms0_0 t) (hs0_0 t) (ms0_1 t) (hs0_1 t) (ms0_2 t) (hs0_2 t)
          (ms0_3 t) (hs0_3 t) (ms0_4 t) (hs0_4 t) (iblk m c 0 t) (iblk m c 1 t) (iblk m c 2 t) (iblk m c 3 t) (ix1 r) := rfl
  have h2 : ((cfg0.win 4).blk t).view.read (Elt Ideal)
        (lossVec (V m c main_v12) (V m c main_v13) (V m c main_v14) (V m c main_v15)) (ix1 r)
      = lossVec (V m c main_v12) (V m c main_v13) (V m c main_v14) (V m c main_v15)
          (((cfg0.win 4).blk t).view.emb (ix1 r)) := rfl
  refine h1.trans (h.trans ?_)
  rw [h2]
  unfold lossVec
  refine congrArg (rowLossK (tab (V m c main_v12)) (tab (V m c main_v13)) (tab (V m c main_v14)) (tab (V m c main_v15)))
    (Fin.ext ?_)
  obtain ⟨e0, e1, _⟩ := idx_facts t
  show ((grid0.coords t) 0).val * 512 + r.val = win0_4.index t (0 : Fin 1) * 512 + 1 * r.val
  omega

/-- An index of the array is in point `t`'s block iff it is within the block's 512 rows. -/
theorem mem_blk (t : Fin cfg0.N) (i : S2048.Idx) :
    i ∈ ((cfg0.win 4).blk t).view.set ↔ ∀ a : Fin 1, win0_4.index t a * S512.size a ≤ (i a).val ∧ (i a).val < win0_4.index t a * S512.size a + S512.size a := by
  show i ∈ ((View.whole main_v16).slice (win0_4.rect t)).set ↔ _
  rw [View.set_slice_whole, Rect.mem_set_unit]
  exact Iff.rfl

/-- Every row is in the block of the point that is its quotient by 512. -/
theorem cover (i : S2048.Idx) : ∃ t : Fin cfg0.N, (cfg0.win 4).flush t = true ∧ i ∈ ((cfg0.win 4).blk t).view.set := by
  have hi : (i 0).val < 2048 := (i 0).isLt
  have hN : (i 0).val / 512 < cfg0.N := by show _ < grid0.N; rw [N_0]; omega
  refine ⟨⟨(i 0).val / 512, hN⟩, flush0_4 _, ?_⟩
  rw [mem_blk]
  intro a
  obtain ⟨e0, _⟩ := idx_facts ⟨(i 0).val / 512, hN⟩
  match a with
  | ⟨0, _⟩ =>
    show win0_4.index _ (0 : Fin 1) * 512 ≤ (i 0).val ∧ (i 0).val < win0_4.index _ (0 : Fin 1) * 512 + 512
    rw [e0]
    show (i 0).val / 512 * 512 ≤ (i 0).val ∧ (i 0).val < (i 0).val / 512 * 512 + 512
    omega

/-- The output array after the run: the loss of every row of the staged tables. -/
theorem final (c : Dev nD) :
    (dats (F := Ideal) m 0 c).arrAt 4 cfg0.N
      = lossVec (V m c main_v12) (V m c main_v13) (V m c main_v14) (V m c main_v15) :=
  (dats m 0 c).arrAt_eq_of_cover 4 _ (fun t _ => flushed_eq m c t) cover

end Cert.KernelIdeal.Arr

end
-- ==== Proof.RefExp.lean ====
/-
  The reference's two exponentiated similarity tensors, read at an entry.

  The reference stacks the four tables of unit rows — english, korean, english→korean, korean→english — along a new
  leading axis, contracts the stack against the english (resp. korean) table over the 1024 features, swaps the two
  row axes, divides by the temperature and exponentiates.  Entry `(t, b, n)` of the result is therefore
  `exp (⟨c_n, a_b⟩ / T)` with `a` the anchor table (english or korean) and `c` the `t`-th key table: the
  quantity `ex a c b n`.
-/
import proofs.«170110_j13494787244306_2_alg».proof.Proof.Gen.ReferenceIdeal.Read
import proofs.«170110_j13494787244306_2_alg».proof.Proof.Contrast
import proofs.«170110_j13494787244306_2_alg».proof.Proof.Consts

noncomputable section

namespace Cert.ReferenceIdeal.RefExp

open Cert.ReferenceIdeal Cert.ReferenceIdeal.Gen Cert.ReferenceIdeal.Read Idealize.ShloMosaic Idealize.ShloMosaic.ValueIdx Cert.Contrast

/-! ## A stack of four tables along a new leading axis, read at an entry -/

section Stack
variable {α : Type} (y0 y1 y2 y3 : S1x2048x1024.Idx → α) (n : Fin 2048) (d : Fin 1024)

/-- The stack of four one-table pieces. -/
abbrev stack4 : S4x2048x1024.Idx → α :=
  concatenate S4x2048x1024 0 [⟨S1x2048x1024, y0⟩, ⟨S1x2048x1024, y1⟩, ⟨S1x2048x1024, y2⟩, ⟨S1x2048x1024, y3⟩]
    concatenates_S1x2048x1024_S1x2048x1024_S1x2048x1024_S1x2048x1024_S4x2048x1024_d0

/-- Off the stacking axis a piece's index has the stack's coordinates. -/
theorem off_axis (t : Fin 4) (b : Fin S1x2048x1024.rank)
    (hb : b.cast (rfl : S1x2048x1024.rank = S4x2048x1024.rank) ≠ (0 : Fin S4x2048x1024.rank)) :
    ((ix3 (0 : Fin 1) n d : S1x2048x1024.Idx) b).val
      = ((ix3 t n d : S4x2048x1024.Idx) (b.cast (rfl : S1x2048x1024.rank = S4x2048x1024.rank))).val := by
  match b, hb with
  | ⟨0, _⟩, hb => exact absurd rfl hb
  | ⟨1, _⟩, _ => rfl
  | ⟨2, _⟩, _ => rfl

theorem stack4_apply0 : stack4 y0 y1 y2 y3 (ix3 (0 : Fin 4) n d) = y0 (ix3 (0 : Fin 1) n d) :=
  concatenate_apply_piece (0 : Fin S4x2048x1024.rank) _ _ (ix3 (0 : Fin 4) n d) 0 (by simp) S1x2048x1024 y0 rfl rfl 0 rfl
    (ix3 (0 : Fin 1) n d) (off_axis n d 0) rfl

theorem stack4_apply1 : stack4 y0 y1 y2 y3 (ix3 (1 : Fin 4) n d) = y1 (ix3 (0 : Fin 1) n d) :=
  concatenate_apply_piece (0 : Fin S4x2048x1024.rank) _ _ (ix3 (1 : Fin 4) n d) 1 (by simp) S1x2048x1024 y1 rfl rfl 1 rfl
    (ix3 (0 : Fin 1) n d) (off_axis n d 1) rfl

theorem stack4_apply2 : stack4 y0 y1 y2 y3 (ix3 (2 : Fin 4) n d) = y2 (ix3 (0 : Fin 1) n d) :=
  concatenate_apply_piece (0 : Fin S4x2048x1024.rank) _ _ (ix3 (2 : Fin 4) n d) 2 (by simp) S1x2048x1024 y2 rfl rfl 2 rfl
    (ix3 (0 : Fin 1) n d) (off_axis n d 2) rfl

theorem stack4_apply3 : stack4 y0 y1 y2 y3 (ix3 (3 : Fin 4) n d) = y3 (ix3 (0 : Fin 1) n d) :=
  concatenate_apply_piece (0 : Fin S4x2048x1024.rank) _ _ (ix3 (3 : Fin 4) n d) 3 (by simp) S1x2048x1024 y3 rfl rfl 3 rfl
    (ix3 (0 : Fin 1) n d) (off_axis n d 3) rfl

end Stack

/-! ## The index maps of the reference's stages, at an entry -/

/-- Each of the four tables enters the stack as a one-table piece: piece entry `(0, n, d)` is table entry `(n, d)`. -/
theorem idx12 (n : Fin 2048) (d : Fin 1024) : idx_main_v12 (ix3 (0 : Fin 1) n d) = ix2 n d :=
  funext fun a => Fin.ext (by match a with | ⟨0, _⟩ => rfl | ⟨1, _⟩ => rfl)
theorem idx13 (n : Fin 2048) (d : Fin 1024) : idx_main_v13 (ix3 (0 : Fin 1) n d) = ix2 n d :=
  funext fun a => Fin.ext (by match a with | ⟨0, _⟩ => rfl | ⟨1, _⟩ => rfl)
theorem idx14 (n : Fin 2048) (d : Fin 1024) : idx_main_v14 (ix3 (0 : Fin 1) n d) = ix2 n d :=
  funext fun a => Fin.ext (by match a with | ⟨0, _⟩ => rfl | ⟨1, _⟩ => rfl)
theorem idx15 (n : Fin 2048) (d : Fin 1024) : idx_main_v15 (ix3 (0 : Fin 1) n d) = ix2 n d :=
  funext fun a => Fin.ext (by match a with | ⟨0, _⟩ => rfl | ⟨1, _⟩ => rfl)

/-- The swap of the two row axes: entry `(t, b, n)` of the result is entry `(t, n, b)` of the operand. -/
theorem idx18 (t : Fin 4) (b n : Fin 2048) : idx_main_v18 (ix3 t b n) = ix3 t n b :=
  funext fun a => Fin.ext (by match a with | ⟨0, _⟩ => rfl | ⟨1, _⟩ => rfl | ⟨2, _⟩ => rfl)
theorem idx22 (t : Fin 4) (b n : Fin 2048) : idx_main_v22 (ix3 t b n) = ix3 t n b :=
  funext fun a => Fin.ext (by match a with | ⟨0, _⟩ => rfl | ⟨1, _⟩ => rfl | ⟨2, _⟩ => rfl)

/-- The contraction's left factor at `(t, n, b)`, feature `k`: the stack at `(t, n, k)` … -/
theorem lidx17 (t : Fin 4) (n b : Fin 2048) (k : Fin 1024) : lidx_main_v17 (ix3 t n b) k = ix3 t n k :=
  funext fun a => Fin.ext (by match a with | ⟨0, _⟩ => rfl | ⟨1, _⟩ => rfl | ⟨2, _⟩ => rfl)
theorem lidx21 (t : Fin 4) (n b : Fin 2048) (k : Fin 1024) : lidx_main_v21 (ix3 t n b) k = ix3 t n k :=
  funext fun a => Fin.ext (by match a with | ⟨0, _⟩ => rfl | ⟨1, _⟩ => rfl | ⟨2, _⟩ => rfl)
/-- … and its right factor: the anchor table at `(b, k)`. -/
theorem ridx17 (t : Fin 4) (n b : Fin 2048) (k : Fin 1024) : ridx_main_v17 (ix3 t n b) k = ix2 b k :=
  funext fun a => Fin.ext (by match a with | ⟨0, _⟩ => rfl | ⟨1, _⟩ => rfl)
theorem ridx21 (t : Fin 4) (n b : Fin 2048) (k : Fin 1024) : ridx_main_v21 (ix3 t n b) k = ix2 b k :=
  funext fun a => Fin.ext (by match a with | ⟨0, _⟩ => rfl | ⟨1, _⟩ => rfl)

/-! ## The stack of the four tables at an entry -/

/-- Entry `(t, n, d)` of the stack is entry `(n, d)` of the `t`-th table, in the order english, korean,
    english→korean, korean→english. -/
theorem v16_apply (x0 x1 x2 x3 : (⟨S2048x1024, .f32⟩ : BufTy).Contents (Elt Ideal)) (t : Fin 4) (n : Fin 2048) (d : Fin 1024) :
    val_main_v16 (F := Ideal) x0 x1 x2 x3 (ix3 t n d) = (pick (tab (val_main_v2 (F := Ideal) x0)) (tab (val_main_v11 (F := Ideal) x3)) (tab (val_main_v5 (F := Ideal) x1)) (tab (val_main_v8 (F := Ideal) x2)) t) n d := by
  unfold val_main_v16
  match t with
  | ⟨0, _⟩ =>
    show stack4 _ _ _ _ (ix3 (0 : Fin 4) n d) = val_main_v2 (F := Ideal) x0 (ix2 n d)
    rw [stack4_apply0, val_main_v12_apply, idx12]
  | ⟨1, _⟩ =>
    show stack4 _ _ _ _ (ix3 (1 : Fin 4) n d) = val_main_v11 (F := Ideal) x3 (ix2 n d)
    rw [stack4_apply1, val_main_v13_apply, idx13]
  | ⟨2, _⟩ =>
    show stack4 _ _ _ _ (ix3 (2 : Fin 4) n d) = val_main_v5 (F := Ideal) x1 (ix2 n d)
    rw [stack4_apply2, val_main_v14_apply, idx14]
  | ⟨3, _⟩ =>
    show stack4 _ _ _ _ (ix3 (3 : Fin 4) n d) = val_main_v8 (F := Ideal) x2 (ix2 n d)
    rw [stack4_apply3, val_main_v15_apply, idx15]

/-! ## The two exponentiated similarity tensors at an entry -/

/-- Against the english table: entry `(t, b, n)` is `exp (⟨c_n, e_b⟩ / T)` with `c` the `t`-th key table. -/
theorem v25_apply (x0 x1 x2 x3 : (⟨S2048x1024, .f32⟩ : BufTy).Contents (Elt Ideal)) (t : Fin 4) (b n : Fin 2048) :
    val_main_v25 (F := Ideal) x0 x1 x2 x3 (ix3 t b n)
      = ex (tab (val_main_v2 (F := Ideal) x0))
          (pick (tab (val_main_v2 (F := Ideal) x0)) (tab (val_main_v11 (F := Ideal) x3)) (tab (val_main_v5 (F := Ideal) x1)) (tab (val_main_v8 (F := Ideal) x2)) t) b n := by
  rw [val_main_v25_apply, val_main_v20_apply, val_main_v18_apply, val_main_v19_apply, val_main_cst_apply, idx18,
    val_main_v17_apply]
  simp only [lidx17, ridx17, v16_apply, Ideal.hostUnary_exp_def, Ideal.hostDivf_def, Ideal.ofBits_def,
    Cert.Consts.ofBits_temp]
  exact ex_ref (tab (val_main_v2 (F := Ideal) x0)) (pick (tab (val_main_v2 (F := Ideal) x0)) (tab (val_main_v11 (F := Ideal) x3)) (tab (val_main_v5 (F := Ideal) x1)) (tab (val_main_v8 (F := Ideal) x2)) t) b n

/-- Against the korean table: entry `(t, b, n)` is `exp (⟨c_n, k_b⟩ / T)` with `c` the `t`-th key table. -/
theorem v26_apply (x0 x1 x2 x3 : (⟨S2048x1024, .f32⟩ : BufTy).Contents (Elt Ideal)) (t : Fin 4) (b n : Fin 2048) :
    val_main_v26 (F := Ideal) x0 x1 x2 x3 (ix3 t b n)
      = ex (tab (val_main_v11 (F := Ideal) x3))
          (pick (tab (val_main_v2 (F := Ideal) x0)) (tab (val_main_v11 (F := Ideal) x3)) (tab (val_main_v5 (F := Ideal) x1)) (tab (val_main_v8 (F := Ideal) x2)) t) b n := by
  rw [val_main_v26_apply, val_main_v24_apply, val_main_v22_apply, val_main_v23_apply, val_main_cst_0_apply, idx22,
    val_main_v21_apply]
  simp only [lidx21, ridx21, v16_apply, Ideal.hostUnary_exp_def, Ideal.hostDivf_def, Ideal.ofBits_def,
    Cert.Consts.ofBits_temp]
  exact ex_ref (tab (val_main_v11 (F := Ideal) x3)) (pick (tab (val_main_v2 (F := Ideal) x0)) (tab (val_main_v11 (F := Ideal) x3)) (tab (val_main_v5 (F := Ideal) x1)) (tab (val_main_v8 (F := Ideal) x2)) t) b n

end Cert.ReferenceIdeal.RefExp

end
-- ==== Proof.RefRow.lean ====
/-
  The reference's loss of one row, read off its two tensors of exponentiated similarities.

  The reference holds `exp_Se[t, b, n]` and `exp_Sk[t, b, n]` (anchor row `b` of the english resp. korean table
  against row `n` of key table `t`).  From each it takes
    * the diagonal `D[t, b] = exp_S[t, b, b]`, by a gather whose start indices are the pairs `(b, b)`;
    * the total `Σ_t Σ_n exp_S[t, b, n]`, by one sum over the first and the last axis;
    * the numerator: the three diagonal terms other than the anchor's own, added left to right;
  and forms `-log (num / (num + (total - Σ_t D[t, b])))` for each anchor, then adds the two.
  This module reads those operations at a row index `b` and finds `rowLossR`, term for term.
-/
import proofs.«170110_j13494787244306_2_alg».proof.Proof.Gen.ReferenceIdeal.Read
import proofs.«170110_j13494787244306_2_alg».proof.Proof.Contrast
import proofs.«170110_j13494787244306_2_alg».proof.Proof.Consts

noncomputable section

namespace Cert.ReferenceIdeal.RefRow

open Cert.ReferenceIdeal Cert.ReferenceIdeal.Gen Cert.ReferenceIdeal.Read Idealize.ShloMosaic Idealize.ShloMosaic.ValueIdx
  Cert.Contrast

/-! ## The 32-bit word of a row number -/

/-- A row number is below `2^31`, so its 32-bit word read as a signed integer is the number itself. -/
theorem word_toInt (b : Fin 2048) : (BitVec.ofNat 32 b.val).toInt = (b.val : Int) := by
  have hb := b.isLt
  have h1 : (BitVec.ofNat 32 b.val).toNat = b.val := by
    rw [BitVec.toNat_ofNat]; exact Nat.mod_eq_of_lt (by omega)
  rw [BitVec.toInt_eq_toNat_cond, h1, if_pos (by omega)]

theorem word_toNat (b : Fin 2048) : (BitVec.ofNat 32 b.val).toInt.toNat = b.val := by
  rw [word_toInt]; rfl

/-- Read signed, the word of a row number is not below zero. -/
theorem word_not_neg (b : Fin 2048) : IntOp.cmpi .slt (BitVec.ofNat 32 b.val) 0#32 = 0#1 := by
  unfold IntOp.cmpi
  have h : (BitVec.ofNat 32 b.val).slt 0#32 = false := by
    rw [BitVec.slt, word_toInt]; simp
  rw [h]; rfl

/-- So "if the counter is negative take it plus 2048, else the counter" is the counter. -/
theorem sel_word (b : Fin 2048) (y : BitVec 32) :
    Scalar.select (IntOp.cmpi .slt (BitVec.ofNat 32 b.val) 0#32) y (BitVec.ofNat 32 b.val) = BitVec.ofNat 32 b.val := by
  rw [word_not_neg, select_zero]

/-! ## The start indices of the two diagonals -/

/-- The first diagonal's two index columns hold, in row `b`, the word of `b`: the counter is
    non-negative read signed, so the wrap-around correction `+ 2048` is not selected. -/
theorem col4a (b : Fin 2048) : val_main_call4_v6 (F := Ideal) (ix1 b) = BitVec.ofNat 32 b.val := by
  rw [val_main_call4_v6_apply, val_main_call4_v3_apply, val_main_call4_v0_apply, val_main_call4_v2_apply,
    val_main_call4_c_apply]
  exact sel_word b _

theorem col4b (b : Fin 2048) : val_main_call4_v11 (F := Ideal) (ix1 b) = BitVec.ofNat 32 b.val := by
  rw [val_main_call4_v11_apply, val_main_call4_v8_apply, val_main_call4_v1_apply, val_main_call4_v7_apply,
    val_main_call4_c_1_apply]
  exact sel_word b _

/-- Entry `(b, c)` of the first diagonal's start indices: the word of `b`, in either column. -/
theorem start4 (b : Fin 2048) (c : Fin 2) :
    val_main_call4_v14 (F := Ideal) (ix2 b c) = BitVec.ofNat 32 b.val := by
  unfold val_main_call4_v14
  match c with
  | ⟨0, _⟩ =>
    refine (concatenate_pair_apply_left (t := S2048x2) (s₁ := S2048x1) (s₂ := S2048x1) (1 : Fin 2) _ _
      concatenates_S2048x1_S2048x1_S2048x2_d1 _ rfl (ix2 b (0 : Fin 1)) ?_).trans ?_
    · intro a
      match a with
      | ⟨0, _⟩ => rfl
      | ⟨1, _⟩ => rfl
    · rw [val_main_call4_v12_apply]
      exact (congrArg _ (funext fun a => Fin.ext (by match a with | ⟨0, _⟩ => rfl))).trans (col4a b)
  | ⟨1, _⟩ =>
    refine (concatenate_pair_apply_right (t := S2048x2) (s₁ := S2048x1) (s₂ := S2048x1) (1 : Fin 2) _ _
      concatenates_S2048x1_S2048x1_S2048x2_d1 _ rfl rfl (ix2 b (0 : Fin 1)) ?_ ?_).trans ?_
    · intro a ha
      match a with
      | ⟨0, _⟩ => rfl
      | ⟨1, _⟩ => exact absurd rfl ha
    · rfl
    · rw [val_main_call4_v13_apply]
      exact (congrArg _ (funext fun a => Fin.ext (by match a with | ⟨0, _⟩ => rfl))).trans (col4b b)

/-- The second diagonal's two index columns hold, in row `b`, the word of `b`: the counter is
    non-negative read signed, so the wrap-around correction `+ 2048` is not selected. -/
theorem col5a (b : Fin 2048) : val_main_call5_v6 (F := Ideal) (ix1 b) = BitVec.ofNat 32 b.val := by
  rw [val_main_call5_v6_apply, val_main_call5_v3_apply, val_main_call5_v0_apply, val_main_call5_v2_apply,
    val_main_call5_c_apply]
  exact sel_word b _

theorem col5b (b : Fin 2048) : val_main_call5_v11 (F := Ideal) (ix1 b) = BitVec.ofNat 32 b.val := by
  rw [val_main_call5_v11_apply, val_main_call5_v8_apply, val_main_call5_v1_apply, val_main_call5_v7_apply,
    val_main_call5_c_1_apply]
  exact sel_word b _

/-- Entry `(b, c)` of the second diagonal's start indices: the word of `b`, in either column. -/
theorem start5 (b : Fin 2048) (c : Fin 2) :
    val_main_call5_v14 (F := Ideal) (ix2 b c) = BitVec.ofNat 32 b.val := by
  unfold val_main_call5_v14
  match c with
  | ⟨0, _⟩ =>
    refine (concatenate_pair_apply_left (t := S2048x2) (s₁ := S2048x1) (s₂ := S2048x1) (1 : Fin 2) _ _
      concatenates_S2048x1_S2048x1_S2048x2_d1 _ rfl (ix2 b (0 : Fin 1)) ?_).trans ?_
    · intro a
      match a with
      | ⟨0, _⟩ => rfl
      | ⟨1, _⟩ => rfl
    · rw [val_main_call5_v12_apply]
      exact (congrArg _ (funext fun a => Fin.ext (by match a with | ⟨0, _⟩ => rfl))).trans (col5a b)
  | ⟨1, _⟩ =>
    refine (concatenate_pair_apply_right (t := S2048x2) (s₁ := S2048x1) (s₂ := S2048x1) (1 : Fin 2) _ _
      concatenates_S2048x1_S2048x1_S2048x2_d1 _ rfl rfl (ix2 b (0 : Fin 1)) ?_ ?_).trans ?_
    · intro a ha
      match a with
      | ⟨0, _⟩ => rfl
      | ⟨1, _⟩ => exact absurd rfl ha
    · rfl
    · rw [val_main_call5_v13_apply]
      exact (congrArg _ (funext fun a => Fin.ext (by match a with | ⟨0, _⟩ => rfl))).trans (col5b b)

/-! ## The gather of a diagonal

Operand `[4, 2048, 2048]`, start indices `[2048, 2]`, result `[4, 2048]`: the result's axis 0 is the one offset axis and
runs over the whole operand axis 0 (slice size 4, start 0); operand axes 1 and 2 are collapsed (slice size 1) and start at
the two components of the start index in row `b`, each read signed and clamped into `[0, 2047]`. -/

/-- With start indices whose row `b` reads `(b, b)`, result element `(t, b)` is operand element `(t, b, b)`. -/
theorem gather_diag {α : Type} (X : S4x2048x2048.Idx → α) (idx : IVec S2048x2 32)
    (hidx : ∀ (b : Fin 2048) (c : Fin 2), (idx (ix2 b c)).toInt.toNat = b.val) (t : Fin 4) (b : Fin 2048) :
    Host.gather gather_S4x2048x2048_S2048x2_S4x2048_0_12_n_n_12_1_411 X idx (ix2 t b) = X (ix3 t b b) := by
  unfold Host.gather
  congr 1
  funext a
  refine Fin.ext ?_
  have m0 : (0 : Fin 3) ∉ gather_S4x2048x2048_S2048x2_S4x2048_0_12_n_n_12_1_411.startIndexMap := by
    show (0 : Fin 3) ∉ [1, 2]; decide
  have m1 : (1 : Fin 3) ∈ gather_S4x2048x2048_S2048x2_S4x2048_0_12_n_n_12_1_411.startIndexMap := by
    show (1 : Fin 3) ∈ [1, 2]; decide
  have m2 : (2 : Fin 3) ∈ gather_S4x2048x2048_S2048x2_S4x2048_0_12_n_n_12_1_411.startIndexMap := by
    show (2 : Fin 3) ∈ [1, 2]; decide
  have k0 : (0 : Fin 3) ∈ gather_S4x2048x2048_S2048x2_S4x2048_0_12_n_n_12_1_411.sKept := by
    show (0 : Fin 3) ∈ S4x2048x2048.kept ([1, 2] ++ []); decide
  have c1 : (1 : Fin 3) ∈ gather_S4x2048x2048_S2048x2_S4x2048_0_12_n_n_12_1_411.collapsedSliceDims := by
    show (1 : Fin 3) ∈ [1, 2]; decide
  have c2 : (2 : Fin 3) ∈ gather_S4x2048x2048_S2048x2_S4x2048_0_12_n_n_12_1_411.collapsedSliceDims := by
    show (2 : Fin 3) ∈ [1, 2]; decide
  have hb := b.isLt
  match a with
  | ⟨0, _⟩ =>
    show gather_S4x2048x2048_S2048x2_S4x2048_0_12_n_n_12_1_411.start (ix2 t b) idx 0 + gather_S4x2048x2048_S2048x2_S4x2048_0_12_n_n_12_1_411.batchCoord (ix2 t b) 0 + gather_S4x2048x2048_S2048x2_S4x2048_0_12_n_n_12_1_411.offCoord (ix2 t b) 0 = t.val
    rw [GatherDims.batchCoord_eq_zero _ _ _ List.not_mem_nil]
    have hs : gather_S4x2048x2048_S2048x2_S4x2048_0_12_n_n_12_1_411.start (ix2 t b) idx 0 = 0 := by
      unfold GatherDims.start
      rw [dif_neg m0]
    have ho : gather_S4x2048x2048_S2048x2_S4x2048_0_12_n_n_12_1_411.offCoord (ix2 t b) 0 = t.val := by
      unfold GatherDims.offCoord
      rw [dif_pos k0]
      rfl
    rw [hs, ho]; omega
  | ⟨1, _⟩ =>
    show gather_S4x2048x2048_S2048x2_S4x2048_0_12_n_n_12_1_411.start (ix2 t b) idx 1 + gather_S4x2048x2048_S2048x2_S4x2048_0_12_n_n_12_1_411.batchCoord (ix2 t b) 1 + gather_S4x2048x2048_S2048x2_S4x2048_0_12_n_n_12_1_411.offCoord (ix2 t b) 1 = b.val
    rw [GatherDims.batchCoord_eq_zero _ _ _ List.not_mem_nil,
      GatherDims.offCoord_eq_zero _ _ _ (fun h => ((GatherDims.mem_sKept _ _).mp h).1 c1)]
    simp only [Nat.add_zero]
    unfold GatherDims.start
    rw [dif_pos m1]
    have hsi : gather_S4x2048x2048_S2048x2_S4x2048_0_12_n_n_12_1_411.siIdx (ix2 t b) ⟨List.idxOf (1 : Fin 3) gather_S4x2048x2048_S2048x2_S4x2048_0_12_n_n_12_1_411.startIndexMap,
        List.idxOf_lt_length_iff.2 m1⟩ = ix2 b (0 : Fin 2) := by
      funext c; refine Fin.ext ?_
      match c with
      | ⟨0, _⟩ => rfl
      | ⟨1, _⟩ => rfl
    rw [hsi, hidx]
    show min b.val (2048 - 1) = b.val
    omega
  | ⟨2, _⟩ =>
    show gather_S4x2048x2048_S2048x2_S4x2048_0_12_n_n_12_1_411.start (ix2 t b) idx 2 + gather_S4x2048x2048_S2048x2_S4x2048_0_12_n_n_12_1_411.batchCoord (ix2 t b) 2 + gather_S4x2048x2048_S2048x2_S4x2048_0_12_n_n_12_1_411.offCoord (ix2 t b) 2 = b.val
    rw [GatherDims.batchCoord_eq_zero _ _ _ List.not_mem_nil,
      GatherDims.offCoord_eq_zero _ _ _ (fun h => ((GatherDims.mem_sKept _ _).mp h).1 c2)]
    simp only [Nat.add_zero]
    unfold GatherDims.start
    rw [dif_pos m2]
    have hsi : gather_S4x2048x2048_S2048x2_S4x2048_0_12_n_n_12_1_411.siIdx (ix2 t b) ⟨List.idxOf (2 : Fin 3) gather_S4x2048x2048_S2048x2_S4x2048_0_12_n_n_12_1_411.startIndexMap,
        List.idxOf_lt_length_iff.2 m2⟩ = ix2 b (1 : Fin 2) := by
      funext c; refine Fin.ext ?_
      match c with
      | ⟨0, _⟩ => rfl
      | ⟨1, _⟩ => rfl
    rw [hsi, hidx]
    show min b.val (2048 - 1) = b.val
    omega

/-- The diagonal of each of the four `[2048, 2048]` slabs, as the first gather reads it. -/
theorem diag4 (X : (⟨S4x2048x2048, .f32⟩ : BufTy).Contents (Elt Ideal)) (t : Fin 4) (b : Fin 2048) :
    Host.gather gather_S4x2048x2048_S2048x2_S4x2048_0_12_n_n_12_1_411 X (val_main_call4_v14 (F := Ideal)) (ix2 t b) = X (ix3 t b b) :=
  gather_diag X _ (fun b c => by rw [start4]; exact word_toNat b) t b

/-- The diagonal of each of the four slabs, as the second gather reads it. -/
theorem diag5 (X : (⟨S4x2048x2048, .f32⟩ : BufTy).Contents (Elt Ideal)) (t : Fin 4) (b : Fin 2048) :
    Host.gather gather_S4x2048x2048_S2048x2_S4x2048_0_12_n_n_12_1_411 X (val_main_call5_v14 (F := Ideal)) (ix2 t b) = X (ix3 t b b) :=
  gather_diag X _ (fun b c => by rw [start5]; exact word_toNat b) t b

/-! ## The sum over the first and the last axis -/

/-- The indices of `[4, 2048, 2048]` whose middle coordinate is `b` are the `(t, b, n)`: the sum over them is the
    double sum over `t` and `n`. -/
theorem reduce02 (h : S4x2048x2048.ReducesTo [0, 2] S2048) (X : S4x2048x2048.Idx → EReal) (init : EReal) (b : Fin 2048) :
    Ideal.hostReduceAdd h X init (ix1 b) = init + ∑ t : Fin 4, ∑ n : Fin 2048, X (ix3 t b n) := by
  unfold Ideal.hostReduceAdd
  congr 1
  rw [← Finset.sum_product' Finset.univ Finset.univ (fun (t : Fin 4) (n : Fin 2048) => X (ix3 t b n))]
  have key : ∀ i : S4x2048x2048.Idx, h.drop i = ix1 b → (i 1 : Fin 2048) = b := by
    intro i hi
    have h0 := congrArg (fun j : S2048.Idx => (j 0).val) hi
    exact Fin.ext h0
  refine Finset.sum_nbij' (fun i => ((i 0 : Fin 4), (i 2 : Fin 2048))) (fun p => ix3 p.1 b p.2) ?_ ?_ ?_ ?_ ?_
  · intro i _; exact Finset.mem_product.2 ⟨Finset.mem_univ _, Finset.mem_univ _⟩
  · intro p _; refine Finset.mem_filter.2 ⟨Finset.mem_univ _, ?_⟩
    funext a
    match a with
    | ⟨0, _⟩ => exact Fin.ext rfl
  · intro i hi
    have h1 := key i (Finset.mem_filter.1 hi).2
    funext a
    match a with
    | ⟨0, _⟩ => rfl
    | ⟨1, _⟩ => exact h1.symm
    | ⟨2, _⟩ => rfl
  · intro p _; rfl
  · intro i hi
    have h1 := key i (Finset.mem_filter.1 hi).2
    refine congrArg X ?_
    funext a
    match a with
    | ⟨0, _⟩ => rfl
    | ⟨1, _⟩ => exact h1
    | ⟨2, _⟩ => rfl

/-- The reference's sum over axes 0 and 2, read at row `b`. -/
theorem total (X : (⟨S4x2048x2048, .f32⟩ : BufTy).Contents (Elt Ideal)) (init : (⟨S_, .f32⟩ : BufTy).Contents (Elt Ideal))
    (b : Fin 2048) :
    Host.reduceAdd (F := Ideal) (φ := .f32) X init reducesTo_S4x2048x2048_S2048_d0_2 h_S_ (ix1 b)
      = init ix0 + ∑ t : Fin 4, ∑ n : Fin 2048, X (ix3 t b n) := by
  simp only [Host.reduceAdd, Ideal.hostReduceAdd_def]
  rw [reduce02]
  exact congrArg (· + _) (congrArg init (eq_ix0 _))

/-! ## The rows of the two diagonal arrays, and their sums over the four tables -/

section Rows

variable (x0 x1 x2 x3 : (⟨S2048x1024, .f32⟩ : BufTy).Contents (Elt Ideal))

theorem v36_at (b : Fin 2048) :
    val_main_v36 (F := Ideal) x0 x1 x2 x3 (ix1 b) = val_main_v27 (F := Ideal) x0 x1 x2 x3 (ix2 (1 : Fin 4) b) := by
  rw [val_main_v36_apply, val_main_v35_apply]
  refine congrArg _ (funext fun a => Fin.ext ?_)
  match a with
  | ⟨0, _⟩ => rfl
  | ⟨1, _⟩ => exact Nat.mod_eq_of_lt b.isLt

theorem v38_at (b : Fin 2048) :
    val_main_v38 (F := Ideal) x0 x1 x2 x3 (ix1 b) = val_main_v27 (F := Ideal) x0 x1 x2 x3 (ix2 (2 : Fin 4) b) := by
  rw [val_main_v38_apply, val_main_v37_apply]
  refine congrArg _ (funext fun a => Fin.ext ?_)
  match a with
  | ⟨0, _⟩ => rfl
  | ⟨1, _⟩ => exact Nat.mod_eq_of_lt b.isLt

theorem v41_at (b : Fin 2048) :
    val_main_v41 (F := Ideal) x0 x1 x2 x3 (ix1 b) = val_main_v27 (F := Ideal) x0 x1 x2 x3 (ix2 (3 : Fin 4) b) := by
  rw [val_main_v41_apply, val_main_v40_apply]
  refine congrArg _ (funext fun a => Fin.ext ?_)
  match a with
  | ⟨0, _⟩ => rfl
  | ⟨1, _⟩ => exact Nat.mod_eq_of_lt b.isLt

theorem v44_at (b : Fin 2048) :
    val_main_v44 (F := Ideal) x0 x1 x2 x3 (ix1 b) = val_main_v28 (F := Ideal) x0 x1 x2 x3 (ix2 (0 : Fin 4) b) := by
  rw [val_main_v44_apply, val_main_v43_apply]
  refine congrArg _ (funext fun a => Fin.ext ?_)
  match a with
  | ⟨0, _⟩ => rfl
  | ⟨1, _⟩ => exact Nat.mod_eq_of_lt b.isLt

theorem v46_at (b : Fin 2048) :
    val_main_v46 (F := Ideal) x0 x1 x2 x3 (ix1 b) = val_main_v28 (F := Ideal) x0 x1 x2 x3 (ix2 (2 : Fin 4) b) := by
  rw [val_main_v46_apply, val_main_v45_apply]
  refine congrArg _ (funext fun a => Fin.ext ?_)
  match a with
  | ⟨0, _⟩ => rfl
  | ⟨1, _⟩ => exact Nat.mod_eq_of_lt b.isLt

theorem v49_at (b : Fin 2048) :
    val_main_v49 (F := Ideal) x0 x1 x2 x3 (ix1 b) = val_main_v28 (F := Ideal) x0 x1 x2 x3 (ix2 (3 : Fin 4) b) := by
  rw [val_main_v49_apply, val_main_v48_apply]
  refine congrArg _ (funext fun a => Fin.ext ?_)
  match a with
  | ⟨0, _⟩ => rfl
  | ⟨1, _⟩ => exact Nat.mod_eq_of_lt b.isLt

theorem v30_at (b : Fin 2048) :
    val_main_v30 (F := Ideal) x0 x1 x2 x3 (ix1 b)
      = 0 + ∑ t : Fin 4, val_main_v27 (F := Ideal) x0 x1 x2 x3 (ix2 t b) := by
  rw [val_main_v30_apply, val_main_cst_2_apply, Ideal.ofBits_def, Cert.Consts.ofBits_zero]
  refine congrArg (0 + ·) (Finset.sum_congr rfl fun t _ => congrArg _ (funext fun a => Fin.ext ?_))
  match a with
  | ⟨0, _⟩ => rfl
  | ⟨1, _⟩ => rfl

theorem v33_at (b : Fin 2048) :
    val_main_v33 (F := Ideal) x0 x1 x2 x3 (ix1 b)
      = 0 + ∑ t : Fin 4, val_main_v28 (F := Ideal) x0 x1 x2 x3 (ix2 t b) := by
  rw [val_main_v33_apply, val_main_cst_4_apply, Ideal.ofBits_def, Cert.Consts.ofBits_zero]
  refine congrArg (0 + ·) (Finset.sum_congr rfl fun t _ => congrArg _ (funext fun a => Fin.ext ?_))
  match a with
  | ⟨0, _⟩ => rfl
  | ⟨1, _⟩ => rfl

end Rows

/-! ## The row's loss -/

/-- THE ROW: given the entries of the two exponentiated tensors, entry `b` of the reference's per-row loss is
    `rowLossR` of the four tables at `b`. -/
theorem v59_row_of (x0 x1 x2 x3 : (⟨S2048x1024, .f32⟩ : BufTy).Contents (Elt Ideal)) (E K ET KT : Tab)
    (h25 : ∀ (t : Fin 4) (b n : Fin 2048),
      val_main_v25 (F := Ideal) x0 x1 x2 x3 (ix3 t b n) = ex E (pick E K ET KT t) b n)
    (h26 : ∀ (t : Fin 4) (b n : Fin 2048),
      val_main_v26 (F := Ideal) x0 x1 x2 x3 (ix3 t b n) = ex K (pick E K ET KT t) b n)
    (b : Fin 2048) :
    val_main_v59 (F := Ideal) x0 x1 x2 x3 (ix1 b) = rowLossR E K ET KT b := by
  have d27 : ∀ (t : Fin 4) (b : Fin 2048),
      val_main_v27 (F := Ideal) x0 x1 x2 x3 (ix2 t b) = ex E (pick E K ET KT t) b b := by
    intro t b; unfold val_main_v27; rw [diag4, h25]
  have d28 : ∀ (t : Fin 4) (b : Fin 2048),
      val_main_v28 (F := Ideal) x0 x1 x2 x3 (ix2 t b) = ex K (pick E K ET KT t) b b := by
    intro t b; unfold val_main_v28; rw [diag5, h26]
  have s29 : val_main_v29 (F := Ideal) x0 x1 x2 x3 (ix1 b)
      = 0 + ∑ t : Fin 4, ∑ n : Fin 2048, ex E (pick E K ET KT t) b n := by
    unfold val_main_v29
    rw [total, val_main_cst_1_apply, Ideal.ofBits_def, Cert.Consts.ofBits_zero]
    simp only [h25]
  have s32 : val_main_v32 (F := Ideal) x0 x1 x2 x3 (ix1 b)
      = 0 + ∑ t : Fin 4, ∑ n : Fin 2048, ex K (pick E K ET KT t) b n := by
    unfold val_main_v32
    rw [total, val_main_cst_3_apply, Ideal.ofBits_def, Cert.Consts.ofBits_zero]
    simp only [h26]
  rw [val_main_v59_apply, val_main_v54_apply, val_main_v53_apply, val_main_v52_apply, val_main_v51_apply,
    val_main_v42_apply, val_main_v39_apply, val_main_v31_apply,
    val_main_v58_apply, val_main_v57_apply, val_main_v56_apply, val_main_v55_apply,
    val_main_v50_apply, val_main_v47_apply, val_main_v34_apply,
    v36_at, v38_at, v41_at, v44_at, v46_at, v49_at, v30_at, v33_at, s29, s32]
  simp only [d27, d28, Ideal.addf_def, Ideal.subf_def, Ideal.hostDivf_def, Ideal.hostUnary_log_def,
    Ideal.hostNegf_def, Ideal.negf_def]
  rfl

end Cert.ReferenceIdeal.RefRow

end
-- ==== Proof.KHost.lean ====
/-
  The kernel program's host side, read back in the reference's stages.

  Before the region both programs divide each of the four input tables by its row norms with the same
  operations, so every table the region stages is the reference's stage of the same argument (the change of
  float format in between is the identity on extended reals).  After the region the kernel program sums the
  loss vector and divides by 4096, and computes the code-switch regulariser from the same four tables and
  the ratios with the very operations the reference uses; so each of its three results is the reference's
  stage of the same arguments as soon as the region's output vector is the reference's vector of row losses —
  which it is, row by row: the kernel's arrangement of a row's loss equals the reference's on every extended
  real.
-/
import proofs.«170110_j13494787244306_2_alg».proof.Proof.Gen.KernelIdeal.Frame
import proofs.«170110_j13494787244306_2_alg».proof.Proof.Gen.ReferenceIdeal.Read
import proofs.«170110_j13494787244306_2_alg».proof.Proof.KArray
import proofs.«170110_j13494787244306_2_alg».proof.Proof.RefExp
import proofs.«170110_j13494787244306_2_alg».proof.Proof.RefRow
import Idealize.ShloMosaic.Lib.StableHlo.Run
import Idealize.ShloMosaic.Lib.Pipeline.FrameSuffix

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.SL.Sem Cert.Contrast Idealize.ShloMosaic.StableHlo

variable (m : (ℓ : Loc nD τ sig) → Buf (Elt Ideal) ℓ) (ρ : Dev nD → PrngReg)

/-! ## The tables before the region -/

/-- The english table with unit rows. -/
theorem V2_eq (c : Dev nD) :
    (V m c main_v2 : S2048x1024.Idx → EReal) = Cert.ReferenceIdeal.Read.val_main_v2 (F := Ideal) (m ((c : Thread nD τ).loc main_arg0)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-- The english→korean table with unit rows. -/
theorem V5_eq (c : Dev nD) :
    (V m c main_v5 : S2048x1024.Idx → EReal) = Cert.ReferenceIdeal.Read.val_main_v5 (F := Ideal) (m ((c : Thread nD τ).loc main_arg1)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-- The korean→english table with unit rows. -/
theorem V8_eq (c : Dev nD) :
    (V m c main_v8 : S2048x1024.Idx → EReal) = Cert.ReferenceIdeal.Read.val_main_v8 (F := Ideal) (m ((c : Thread nD τ).loc main_arg2)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-- The korean table with unit rows. -/
theorem V11_eq (c : Dev nD) :
    (V m c main_v11 : S2048x1024.Idx → EReal) = Cert.ReferenceIdeal.Read.val_main_v11 (F := Ideal) (m ((c : Thread nD τ).loc main_arg3)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-- The english table as staged: the change of format is the identity. -/
theorem V12_eq (c : Dev nD) :
    (V m c main_v12 : S2048x1024.Idx → EReal) = Cert.ReferenceIdeal.Read.val_main_v2 (F := Ideal) (m ((c : Thread nD τ).loc main_arg0)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-- The korean table as staged. -/
theorem V13_eq (c : Dev nD) :
    (V m c main_v13 : S2048x1024.Idx → EReal) = Cert.ReferenceIdeal.Read.val_main_v11 (F := Ideal) (m ((c : Thread nD τ).loc main_arg3)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-- The english→korean table as staged. -/
theorem V14_eq (c : Dev nD) :
    (V m c main_v14 : S2048x1024.Idx → EReal) = Cert.ReferenceIdeal.Read.val_main_v5 (F := Ideal) (m ((c : Thread nD τ).loc main_arg1)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-- The korean→english table as staged. -/
theorem V15_eq (c : Dev nD) :
    (V m c main_v15 : S2048x1024.Idx → EReal) = Cert.ReferenceIdeal.Read.val_main_v8 (F := Ideal) (m ((c : Thread nD τ).loc main_arg2)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results
  rfl

/-! ## The region's output is the reference's vector of row losses -/

theorem lossVec_eq (c : Dev nD) :
    Cert.KernelIdeal.Arr.lossVec (V m c main_v12) (V m c main_v13) (V m c main_v14) (V m c main_v15)
      = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) := by
  funext j
  obtain ⟨b, rfl⟩ : ∃ b : Fin 2048, j = ix1 b := ⟨j 0, eq_ix1 j⟩
  unfold Cert.KernelIdeal.Arr.lossVec
  rw [V12_eq, V13_eq, V14_eq, V15_eq]
  show rowLossK _ _ _ _ b = _
  rw [rowLossK_eq_rowLossR]
  exact (Cert.ReferenceIdeal.RefRow.v59_row_of _ _ _ _ _ _ _ _
    (fun t b n => Cert.ReferenceIdeal.RefExp.v25_apply _ _ _ _ t b n)
    (fun t b n => Cert.ReferenceIdeal.RefExp.v26_apply _ _ _ _ t b n) b).symm

/-! ## The buffers the lines after the region read -/

theorem leaf_v2 (c : Dev nD) (A : (w : Fin cfg0.W) → Buf (Elt Ideal) ((spec0 w).arr.view.loc (c.tc : Thread nD τ))) :
    (Pipeline.withArrays spec0 c (V0 m c) A (Proc.devRef .tc main_v2) : S2048x1024.Idx → EReal)
      = Cert.ReferenceIdeal.Read.val_main_v2 (F := Ideal) (m ((c : Thread nD τ).loc main_arg0)) :=
  (Pipeline.withArrays_of_ne spec0 c (V0 m c) A main_v2 (by decide)).trans (V2_eq m c)

theorem leaf_v5 (c : Dev nD) (A : (w : Fin cfg0.W) → Buf (Elt Ideal) ((spec0 w).arr.view.loc (c.tc : Thread nD τ))) :
    (Pipeline.withArrays spec0 c (V0 m c) A (Proc.devRef .tc main_v5) : S2048x1024.Idx → EReal)
      = Cert.ReferenceIdeal.Read.val_main_v5 (F := Ideal) (m ((c : Thread nD τ).loc main_arg1)) :=
  (Pipeline.withArrays_of_ne spec0 c (V0 m c) A main_v5 (by decide)).trans (V5_eq m c)

theorem leaf_v8 (c : Dev nD) (A : (w : Fin cfg0.W) → Buf (Elt Ideal) ((spec0 w).arr.view.loc (c.tc : Thread nD τ))) :
    (Pipeline.withArrays spec0 c (V0 m c) A (Proc.devRef .tc main_v8) : S2048x1024.Idx → EReal)
      = Cert.ReferenceIdeal.Read.val_main_v8 (F := Ideal) (m ((c : Thread nD τ).loc main_arg2)) :=
  (Pipeline.withArrays_of_ne spec0 c (V0 m c) A main_v8 (by decide)).trans (V8_eq m c)

theorem leaf_v11 (c : Dev nD) (A : (w : Fin cfg0.W) → Buf (Elt Ideal) ((spec0 w).arr.view.loc (c.tc : Thread nD τ))) :
    (Pipeline.withArrays spec0 c (V0 m c) A (Proc.devRef .tc main_v11) : S2048x1024.Idx → EReal)
      = Cert.ReferenceIdeal.Read.val_main_v11 (F := Ideal) (m ((c : Thread nD τ).loc main_arg3)) :=
  (Pipeline.withArrays_of_ne spec0 c (V0 m c) A main_v11 (by decide)).trans (V11_eq m c)

theorem leaf_arg4 (c : Dev nD) (A : (w : Fin cfg0.W) → Buf (Elt Ideal) ((spec0 w).arr.view.loc (c.tc : Thread nD τ))) :
    Pipeline.withArrays spec0 c (V0 m c) A (Proc.devRef .tc main_arg4) = m ((c : Thread nD τ).loc main_arg4) :=
  (Pipeline.withArrays_of_ne spec0 c (V0 m c) A main_arg4 (by decide)).trans (V_main_arg4 m c)

theorem leaf_v16 (c : Dev nD) :
    Pipeline.withArrays spec0 c (V0 m c) (fun w => (dats (F := Ideal) m 0 c).arrAt w cfg0.N) (Proc.devRef .tc main_v16)
      = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) :=
  ((Pipeline.withArrays_arr spec0 launch0.win.arr_inj c _ _ 4).trans (Cert.KernelIdeal.Arr.final m c)).trans (lossVec_eq m c)

/-! ## The three results -/

/-- The contrastive loss: the mean of the row losses. -/
theorem tail_v18 (c : Dev nD) :
    Pipeline.afterTail₀ cfgs (dats (F := Ideal) m) 0 (V0 m) [hostOps1, hostOps1_1, hostOps1_2, hostOps1_3, hostOps1_4] c main_v18
      = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) := by
  unfold Pipeline.afterTail₀
  show StableHlo.after _ (Pipeline.withArrays spec0 c (V0 m c) fun w => (dats (F := Ideal) m 0 c).arrAt w cfg0.N)
      (Proc.devRef .tc main_v18) = _
  simp only [hostOps1, hostOps1_1, hostOps1_2, hostOps1_3, hostOps1_4,
    List.flatten_cons, List.flatten_nil, List.append_nil, List.cons_append, List.nil_append]
  after_results_simp
  rw [leaf_v16]
  rfl

/-- The code-switch regulariser. -/
theorem tail_v40 (c : Dev nD) :
    Pipeline.afterTail₀ cfgs (dats (F := Ideal) m) 0 (V0 m) [hostOps1, hostOps1_1, hostOps1_2, hostOps1_3, hostOps1_4] c main_v40
      = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after _ (Pipeline.withArrays spec0 c (V0 m c) fun w => (dats (F := Ideal) m 0 c).arrAt w cfg0.N)
      (Proc.devRef .tc main_v40) = _
  simp only [hostOps1, hostOps1_1, hostOps1_2, hostOps1_3, hostOps1_4,
    List.flatten_cons, List.flatten_nil, List.append_nil, List.cons_append, List.nil_append]
  after_results_simp
  rw [leaf_v2, leaf_v5, leaf_v8, leaf_v11, leaf_arg4]
  rfl

/-- The total loss. -/
theorem tail_v42 (c : Dev nD) :
    Pipeline.afterTail₀ cfgs (dats (F := Ideal) m) 0 (V0 m) [hostOps1, hostOps1_1, hostOps1_2, hostOps1_3, hostOps1_4] c main_v42
      = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after _ (Pipeline.withArrays spec0 c (V0 m c) fun w => (dats (F := Ideal) m 0 c).arrAt w cfg0.N)
      (Proc.devRef .tc main_v42) = _
  simp only [hostOps1, hostOps1_1, hostOps1_2, hostOps1_3, hostOps1_4,
    List.flatten_cons, List.flatten_nil, List.append_nil, List.cons_append, List.nil_append]
  after_results_simp
  rw [leaf_v2, leaf_v5, leaf_v8, leaf_v11, leaf_arg4, leaf_v16]
  rfl

/-! ## The run -/

/-- Every weakly fair execution of the kernel program terminates with its three results at the reference's
    stages of the arguments, and the arguments unchanged. -/
theorem run : θ_run defs (onTc (τ := τ) (main (F := Ideal))) ⟨m, fun _ => 0, ρ⟩ (fun r => ∀ c : Dev nD,
      r.2.mem ((c.tc : Thread nD τ).loc main_v42) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v18) = Cert.ReferenceIdeal.Read.val_main_v61 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v40) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v42 (Pipeline.mem_restRefs_of main_v42 (by decide) (by decide))).trans (tail_v42 m c),
     ((h c).2 main_v18 (Pipeline.mem_restRefs_of main_v18 (by decide) (by decide))).trans (tail_v18 m c),
     ((h c).2 main_v40 (Pipeline.mem_restRefs_of main_v40 (by decide) (by decide))).trans (tail_v40 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.HostSide

end
-- ==== Proof.lean ====
/-
  The certificate of the contrastive code-switch loss: a kernel that, per block of 512 anchor rows, forms the
  exponentiated scaled similarities of the english and korean anchors against the four whole tables, and
  reduces them to one loss per row — against the reference that builds the [4, 2048, 2048] similarity tensors,
  takes their diagonals and sums them.

  The three frames are the generated ones (the reference's is its generated run with the results dropped).
  The ledger's eight entries are one fact, eight times: the kernel's reciprocal temperature, named, denotes
  the reciprocal of the binary32 value of the reference's temperature.
  For the values: both programs normalise the four tables with the same host operations; the region's output
  vector is, row by row, the kernel's arrangement of the row's loss, which equals the reference's arrangement
  on every extended real because an exponential is never `⊥` (Proof/Contrast.lean) — so no finiteness of the
  inputs is used; and the lines after the region are the reference's own.  Both runs therefore end at the
  same three terms of the arguments.
-/
import proofs.«170110_j13494787244306_2_alg».proof.Defs
import proofs.«170110_j13494787244306_2_alg».proof.Proof.Gen.Kernel
import proofs.«170110_j13494787244306_2_alg».proof.Proof.Gen.Kernel.Skeleton
import proofs.«170110_j13494787244306_2_alg».proof.Proof.Gen.Kernel.Launch
import proofs.«170110_j13494787244306_2_alg».proof.Proof.Gen.Kernel.Points
import proofs.«170110_j13494787244306_2_alg».proof.Proof.Gen.Kernel.Frame
import proofs.«170110_j13494787244306_2_alg».proof.Proof.Gen.KernelIdeal
import proofs.«170110_j13494787244306_2_alg».proof.Proof.Gen.KernelIdeal.Skeleton
import proofs.«170110_j13494787244306_2_alg».proof.Proof.Gen.KernelIdeal.Launch
import proofs.«170110_j13494787244306_2_alg».proof.Proof.Gen.KernelIdeal.Points
import proofs.«170110_j13494787244306_2_alg».proof.Proof.Gen.KernelIdeal.Frame
import proofs.«170110_j13494787244306_2_alg».proof.Proof.Gen.ReferenceIdeal
import proofs.«170110_j13494787244306_2_alg».proof.Proof.Gen.Pre_finite_inputs
import proofs.«170110_j13494787244306_2_alg».proof.Proof.Gen.ReferenceIdeal.Run
import proofs.«170110_j13494787244306_2_alg».proof.Proof.Gen.ReferenceIdeal.Read
import proofs.«170110_j13494787244306_2_alg».proof.Proof.KHost
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The named reciprocal temperature is, at `Ideal`, the value the table gives it. -/
theorem named_inv_temp :
    IdealRules.named_const.Statement Cert.KernelIdeal.κ "inv_temp" .f32 0x41200000#32 ((134217728 / 13421773 : ℝ) : EReal) :=
  IdealRules.named_const.statement Cert.KernelIdeal.κ "inv_temp" .f32 0x41200000#32 ((134217728 / 13421773 : ℝ) : EReal) rfl

theorem preserves : Cert.preserves_Kernel_KernelIdeal :=
  ⟨named_inv_temp, named_inv_temp, named_inv_temp, named_inv_temp, named_inv_temp, named_inv_temp, named_inv_temp, named_inv_temp⟩

/-- Both idealized programs, from memories agreeing on the arguments, end with their three results at the
    reference's stages of those arguments. -/
theorem algebraic : Cert.algebraic_KernelIdeal_ReferenceIdeal := by
  intro m ρ m' ρ' _ hagree
  refine ⟨_, _, _, Cert.KernelIdeal.HostSide.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v85_eq, (hagree c).1, (hagree c).2.1, (hagree c).2.2.1, (hagree c).2.2.2.1,
      (hagree c).2.2.2.2]
  · rw [Cert.ReferenceIdeal.Read.val_main_v61_eq, (hagree c).1, (hagree c).2.1, (hagree c).2.2.1, (hagree c).2.2.2.1]
  · rw [Cert.ReferenceIdeal.Read.val_main_v83_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
